-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)) →
    ∃ (v0 : (c : Dev Cert.KernelIdeal.nD) → Buf (Elt Ideal) ((c.tc : Thread Cert.KernelIdeal.nD Cert.KernelIdeal.τ).loc Cert.KernelIdeal.main_v47)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v47) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v71) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x32 : Shape := ⟨2, ![50000, 32]⟩
abbrev S200x32 : Shape := ⟨2, ![200, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2500000 : Shape := ⟨1, ![2500000]⟩
abbrev S500000 : Shape := ⟨1, ![500000]⟩
abbrev S_ : Shape := ⟨0, ![]⟩

class Facts : Prop where
  bcast_S_S50000x32 : S_.BroadcastsInDim S50000x32 (![] : Fin 0 → Fin S50000x32.rank)
  reducesTo_S50000x32_S_d0_1 : S50000x32.ReducesTo [0, 1] S_
  h_S_ : 0 < S_.numel
  bcast_S_S200x32 : S_.BroadcastsInDim S200x32 (![] : Fin 0 → Fin S200x32.rank)
  reducesTo_S200x32_S_d0_1 : S200x32.ReducesTo [0, 1] S_
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_
  bcast_S_S64x1 : S_.BroadcastsInDim S64x1 (![] : Fin 0 → Fin S64x1.rank)
  reducesTo_S64x1_S_d0_1 : S64x1.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg7 : FVec F S64 .f32) (main_arg8 : FVec F S64x1 .f32) (main_arg9 : FVec F S1 .f32) (main_v33 : IVec S_ 1) : IVec S_ 1 :=
  let main_v34 : FVec F S64 .f32 := Host.absf main_arg7
  let main_cst_12 : FVec F S_ .f32 := constant S_ .f32 0x7F800000#32
  let main_v35 : FVec F S64 .f32 := broadcastInDim S64 ![] bcast_S_S64 main_cst_12
  let main_v36 : IVec S64 1 := cmpf .olt main_v34 main_v35
  let main_c_13 : IVec S_ 1 := constantI S_ 1 1#1
  let main_v37 : IVec S_ 1 := (fun x v => Host.reduce IntOp.andi x v reducesTo_S64_S_d0 h_S_) main_v36 main_c_13
  let main_v38 : IVec S_ 1 := andi main_v33 main_v37
  let main_v39 : FVec F S64x1 .f32 := Host.absf main_arg8
  let main_cst_14 : FVec F S_ .f32 := constant S_ .f32 0x7F800000#32
  let main_v40 : FVec F S64x1 .f32 := broadcastInDim S64x1 ![] bcast_S_S64x1 main_cst_14
  let main_v41 : IVec S64x1 1 := cmpf .olt main_v39 main_v40
  let main_c_15 : IVec S_ 1 := constantI S_ 1 1#1
  let main_v42 : IVec S_ 1 := (fun x v => Host.reduce IntOp.andi x v reducesTo_S64x1_S_d0_1 h_S_) main_v41 main_c_15
  let main_v43 : IVec S_ 1 := andi main_v38 main_v42
  let main_v44 : FVec F S1 .f32 := Host.absf main_arg9
  let main_cst_16 : FVec F S_ .f32 := constant S_ .f32 0x7F800000#32
  let main_v45 : FVec F S1 .f32 := broadcastInDim S1 ![] bcast_S_S1 main_cst_16
  let main_v46 : IVec S1 1 := cmpf .olt main_v44 main_v45
  let main_c_17 : IVec S_ 1 := constantI S_ 1 1#1
  let main_v47 : IVec S_ 1 := (fun x v => Host.reduce IntOp.andi x v reducesTo_S1_S_d0 h_S_) main_v46 main_c_17
  let main_v48 : IVec S_ 1 := andi main_v43 main_v47
  main_v48

def fn_part1 {F : FTy → Type} [FloatOps F] (main_arg4 : FVec F S64 .f32) (main_arg5 : FVec F S64 .f32) (main_arg6 : FVec F S64 .f32) (main_arg7 : FVec F S64 .f32) (main_arg8 : FVec F S64x1 .f32) (main_arg9 : FVec F S1 .f32) (main_v13 : IVec S_ 1) (main_v16 : IVec S64 1) : IVec S_ 1 :=
  let main_c_5 : IVec S_ 1 := constantI S_ 1 1#1
  let main_v17 : IVec S_ 1 := (fun x v => Host.reduce IntOp.andi x v reducesTo_S64_S_d0 h_S_) main_v16 main_c_5
  let main_v18 : IVec S_ 1 := andi main_v13 main_v17
  let main_v19 : FVec F S64 .f32 := Host.absf main_arg4
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  let main_v24 : FVec F S64 .f32 := Host.absf main_arg5
  let main_cst_8 : FVec F S_ .f32 := constant S_ .f32 0x7F800000#32
  let main_v25 : FVec F S64 .f32 := broadcastInDim S64 ![] bcast_S_S64 main_cst_8
  let main_v26 : IVec S64 1 := cmpf .olt main_v24 main_v25
  let main_c_9 : IVec S_ 1 := constantI S_ 1 1#1
  let main_v27 : IVec S_ 1 := (fun x v => Host.reduce IntOp.andi x v reducesTo_S64_S_d0 h_S_) main_v26 main_c_9
  let main_v28 : IVec S_ 1 := andi main_v23 main_v27
  let main_v29 : FVec F S64 .f32 := Host.absf main_arg6
  let main_cst_10 : FVec F S_ .f32 := constant S_ .f32 0x7F800000#32
  let main_v30 : FVec F S64 .f32 := broadcastInDim S64 ![] bcast_S_S64 main_cst_10
  let main_v31 : IVec S64 1 := cmpf .olt main_v29 main_v30
  let main_c_11 : IVec S_ 1 := constantI S_ 1 1#1
  let main_v32 : IVec S_ 1 := (fun x v => Host.reduce IntOp.andi x v reducesTo_S64_S_d0 h_S_) main_v31 main_c_11
  let main_v33 : IVec S_ 1 := andi main_v28 main_v32
  fn_part2 (F := F) main_arg7 main_arg8 main_arg9 main_v33

def fn {F : FTy → Type} [FloatOps F] (main_arg0 : FVec F S50000x32 .f32) (main_arg1 : FVec F S200x32 .f32) (main_arg2 : FVec F S64x64 .f32) (main_arg3 : FVec F S64 .f32) (main_arg4 : FVec F S64 .f32) (main_arg5 : FVec F S64 .f32) (main_arg6 : FVec F S64 .f32) (main_arg7 : FVec F S64 .f32) (main_arg8 : FVec F S64x1 .f32) (main_arg9 : FVec F S1 .f32) (main_arg10 : IVec S2500000 32) (main_arg11 : IVec S2500000 32) (main_arg12 : IVec S2500000 32) (main_arg13 : IVec S500000 32) : IVec S_ 1 :=
  let main_v0 : FVec F S50000x32 .f32 := Host.absf main_arg0
  let main_cst : FVec F S_ .f32 := constant S_ .f32 0x7F800000#32
  let main_v1 : FVec F S50000x32 .f32 := broadcastInDim S50000x32 ![] bcast_S_S50000x32 main_cst
  let main_v2 : IVec S50000x32 1 := cmpf .olt main_v0 main_v1
  let main_c : IVec S_ 1 := constantI S_ 1 1#1
  let main_v3 : IVec S_ 1 := (fun x v => Host.reduce IntOp.andi x v reducesTo_S50000x32_S_d0_1 h_S_) main_v2 main_c
  let main_v4 : FVec F S200x32 .f32 := Host.absf main_arg1
  let main_cst_0 : FVec F S_ .f32 := constant S_ .f32 0x7F800000#32
  let main_v5 : FVec F S200x32 .f32 := broadcastInDim S200x32 ![] bcast_S_S200x32 main_cst_0
  let main_v6 : IVec S200x32 1 := cmpf .olt main_v4 main_v5
  let main_c_1 : IVec S_ 1 := constantI S_ 1 1#1
  let main_v7 : IVec S_ 1 := (fun x v => Host.reduce IntOp.andi x v reducesTo_S200x32_S_d0_1 h_S_) main_v6 main_c_1
  let main_v8 : IVec S_ 1 := andi main_v3 main_v7
  let main_v9 : FVec F S64x64 .f32 := Host.absf main_arg2
  let main_cst_2 : FVec F S_ .f32 := constant S_ .f32 0x7F800000#32
  let main_v10 : FVec F S64x64 .f32 := broadcastInDim S64x64 ![] bcast_S_S64x64 main_cst_2
  let main_v11 : IVec S64x64 1 := cmpf .olt main_v9 main_v10
  let main_c_3 : IVec S_ 1 := constantI S_ 1 1#1
  let main_v12 : IVec S_ 1 := (fun x v => Host.reduce IntOp.andi x v reducesTo_S64x64_S_d0_1 h_S_) main_v11 main_c_3
  let main_v13 : IVec S_ 1 := andi main_v8 main_v12
  let main_v14 : FVec F S64 .f32 := Host.absf main_arg3
  let main_cst_4 : FVec F S_ .f32 := constant S_ .f32 0x7F800000#32
  let main_v15 : FVec F S64 .f32 := broadcastInDim S64 ![] bcast_S_S64 main_cst_4
  let main_v16 : IVec S64 1 := cmpf .olt main_v14 main_v15
  fn_part1 (F := F) main_arg4 main_arg5 main_arg6 main_arg7 main_arg8 main_arg9 main_v13 main_v16
-- ==== Kernel.lean ====
abbrev S50000x32 : Shape := ⟨2, ![50000, 32]⟩
abbrev S200x32 : Shape := ⟨2, ![200, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2500000 : Shape := ⟨1, ![2500000]⟩
abbrev S500000 : Shape := ⟨1, ![500000]⟩
abbrev S_ : Shape := ⟨0, ![]⟩
abbrev S2500000x1 : Shape := ⟨2, ![2500000, 1]⟩
abbrev S2500000x32 : Shape := ⟨2, ![2500000, 32]⟩
abbrev S32x64 : Shape := ⟨2, ![32, 64]⟩
abbrev S1x64 : Shape := ⟨2, ![1, 64]⟩
abbrev S1x1 : Shape := ⟨2, ![1, 1]⟩
abbrev S10000x32 : Shape := ⟨2, ![10000, 32]⟩
abbrev S10000x1 : Shape := ⟨2, ![10000, 1]⟩
abbrev S10000x64 : Shape := ⟨2, ![10000, 64]⟩
abbrev S500000x1 : Shape := ⟨2, ![500000, 1]⟩

abbrev nBuf : Space → Nat
  | .hbm => 74
  | .vmem => 17
  | .smem => 0
  | _ => 0

abbrev bufTy : (tb : Table) → Fin (tcTables nBuf tb) → BufTy
  | .hbm, ⟨0, _⟩ => ⟨S50000x32, .f32⟩
  | .hbm, ⟨1, _⟩ => ⟨S200x32, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2500000, .i32⟩
  | .hbm, ⟨11, _⟩ => ⟨S2500000, .i32⟩
  | .hbm, ⟨12, _⟩ => ⟨S2500000, .i32⟩
  | .hbm, ⟨13, _⟩ => ⟨S500000, .i32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x32, .f32⟩
  | .hbm, ⟨23, _⟩ => ⟨S_, .i32⟩
  | .hbm, ⟨24, _⟩ => ⟨S2500000, .i32⟩
  | .hbm, ⟨25, _⟩ => ⟨S2500000, .i1⟩
  | .hbm, ⟨26, _⟩ => ⟨S_, .i32⟩
  | .hbm, ⟨27, _⟩ => ⟨S2500000, .i32⟩
  | .hbm, ⟨28, _⟩ => ⟨S2500000, .i32⟩
  | .hbm, ⟨29, _⟩ => ⟨S2500000, .i32⟩
  | .hbm, ⟨30, _⟩ => ⟨S2500000x1, .i32⟩
  | .hbm, ⟨31, _⟩ => ⟨S2500000x32, .f32⟩
  | .hbm, ⟨32, _⟩ => ⟨S_, .i32⟩
  | .hbm, ⟨33, _⟩ => ⟨S2500000, .i32⟩
  | .hbm, ⟨34, _⟩ => ⟨S2500000, .i1⟩
  | .hbm, ⟨35, _⟩ => ⟨S_, .i32⟩
  | .hbm, ⟨36, _⟩ => ⟨S2500000, .i32⟩
  | .hbm, ⟨37, _⟩ => ⟨S2500000, .i32⟩
  | .hbm, ⟨38, _⟩ => ⟨S2500000, .i32⟩
  | .hbm, ⟨39, _⟩ => ⟨S2500000x1, .i32⟩
  | .hbm, ⟨40, _⟩ => ⟨S2500000x32, .f32⟩
  | .hbm, ⟨41, _⟩ => ⟨S32x64, .f32⟩
  | .hbm, ⟨42, _⟩ => ⟨S32x64, .f32⟩
  | .hbm, ⟨43, _⟩ => ⟨S1x64, .f32⟩
  | .hbm, ⟨44, _⟩ => ⟨S1x64, .f32⟩
  | .hbm, ⟨45, _⟩ => ⟨S1x64, .f32⟩
  | .hbm, ⟨46, _⟩ => ⟨S1x64, .f32⟩
  | .hbm, ⟨47, _⟩ => ⟨S1x64, .f32⟩
  | .hbm, ⟨48, _⟩ => ⟨S1x1, .f32⟩
  | .hbm, ⟨49, _⟩ => ⟨S2500000x1, .f32⟩
  | .hbm, ⟨50, _⟩ => ⟨S_, .i32⟩
  | .hbm, ⟨51, _⟩ => ⟨S500000, .i32⟩
  | .hbm, ⟨52, _⟩ => ⟨S500000, .i1⟩
  | .hbm, ⟨53, _⟩ => ⟨S_, .i32⟩
  | .hbm, ⟨54, _⟩ => ⟨S500000, .i32⟩
  | .hbm, ⟨55, _⟩ => ⟨S500000, .i32⟩
  | .hbm, ⟨56, _⟩ => ⟨S500000, .i32⟩
  | .hbm, ⟨57, _⟩ => ⟨S500000x1, .i32⟩
  | .hbm, ⟨58, _⟩ => ⟨S500000x1, .f32⟩
  | .hbm, ⟨59, _⟩ => ⟨S_, .f32⟩
  | .hbm, ⟨60, _⟩ => ⟨S500000x1, .f32⟩
  | .hbm, ⟨61, _⟩ => ⟨S500000x1, .f32⟩
  | .hbm, ⟨62, _⟩ => ⟨S_, .f32⟩
  | .hbm, ⟨63, _⟩ => ⟨S500000x1, .f32⟩
  | .hbm, ⟨64, _⟩ => ⟨S500000x1, .f32⟩
  | .hbm, ⟨65, _⟩ => ⟨S_, .i32⟩
  | .hbm, ⟨66, _⟩ => ⟨S500000, .i32⟩
  | .hbm, ⟨67, _⟩ => ⟨S500000, .i1⟩
  | .hbm, ⟨68, _⟩ => ⟨S_, .i32⟩
  | .hbm, ⟨69, _⟩ => ⟨S500000, .i32⟩
  | .hbm, ⟨70, _⟩ => ⟨S500000, .i32⟩
  | .hbm, ⟨71, _⟩ => ⟨S500000, .i32⟩
  | .hbm, ⟨72, _⟩ => ⟨S500000x1, .i32⟩
  | .hbm, ⟨73, _⟩ => ⟨S2500000x1, .f32⟩
  | .local _ .vmem, ⟨0, _⟩ => ⟨S10000x32, .f32⟩
  | .local _ .vmem, ⟨1, _⟩ => ⟨S10000x32, .f32⟩
  | .local _ .vmem, ⟨2, _⟩ => ⟨S10000x32, .f32⟩
  | .local _ .vmem, ⟨3, _⟩ => ⟨S10000x32, .f32⟩
  | .local _ .vmem, ⟨4, _⟩ => ⟨S10000x32, .f32⟩
  | .local _ .vmem, ⟨5, _⟩ => ⟨S10000x32, .f32⟩
  | .local _ .vmem, ⟨6, _⟩ => ⟨S32x64, .f32⟩
  | .local _ .vmem, ⟨7, _⟩ => ⟨S32x64, .f32⟩
  | .local _ .vmem, ⟨8, _⟩ => ⟨S1x64, .f32⟩
  | .local _ .vmem, ⟨9, _⟩ => ⟨S1x64, .f32⟩
  | .local _ .vmem, ⟨10, _⟩ => ⟨S1x64, .f32⟩
  | .local _ .vmem, ⟨11, _⟩ => ⟨S1x64, .f32⟩
  | .local _ .vmem, ⟨12, _⟩ => ⟨S1x64, .f32⟩
  | .local _ .vmem, ⟨13, _⟩ => ⟨S64x1, .f32⟩
  | .local _ .vmem, ⟨14, _⟩ => ⟨S1x1, .f32⟩
  | .local _ .vmem, ⟨15, _⟩ => ⟨S10000x1, .f32⟩
  | .local _ .vmem, ⟨16, _⟩ => ⟨S10000x1, .f32⟩
  | _, _ => ⟨S50000x32, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_c_3 : Ref sig .tc := ⟨.hbm, 32, rfl⟩
abbrev main_v14 : Ref sig .tc := ⟨.hbm, 33, rfl⟩
abbrev main_v15 : Ref sig .tc := ⟨.hbm, 34, rfl⟩
abbrev main_c_4 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_c_5 : Ref sig .tc := ⟨.hbm, 50, rfl⟩
abbrev main_v30 : Ref sig .tc := ⟨.hbm, 51, rfl⟩
abbrev main_v31 : Ref sig .tc := ⟨.hbm, 52, rfl⟩
abbrev main_c_6 : Ref sig .tc := ⟨.hbm, 53, rfl⟩
abbrev main_v32 : Ref sig .tc := ⟨.hbm, 54, rfl⟩
abbrev main_v33 : Ref sig .tc := ⟨.hbm, 55, rfl⟩
abbrev main_v34 : Ref sig .tc := ⟨.hbm, 56, rfl⟩
abbrev main_v35 : Ref sig .tc := ⟨.hbm, 57, rfl⟩
abbrev main_v36 : Ref sig .tc := ⟨.hbm, 58, rfl⟩
abbrev main_cst : Ref sig .tc := ⟨.hbm, 59, rfl⟩
abbrev main_v37 : Ref sig .tc := ⟨.hbm, 60, rfl⟩
abbrev main_v38 : Ref sig .tc := ⟨.hbm, 61, rfl⟩
abbrev main_cst_7 : Ref sig .tc := ⟨.hbm, 62, rfl⟩
abbrev main_v39 : Ref sig .tc := ⟨.hbm, 63, rfl⟩
abbrev main_v40 : Ref sig .tc := ⟨.hbm, 64, rfl⟩
abbrev main_c_8 : Ref sig .tc := ⟨.hbm, 65, rfl⟩
abbrev main_v41 : Ref sig .tc := ⟨.hbm, 66, rfl⟩
abbrev main_v42 : Ref sig .tc := ⟨.hbm, 67, rfl⟩
abbrev main_c_9 : Ref sig .tc := ⟨.hbm, 68, rfl⟩
abbrev main_v43 : Ref sig .tc := ⟨.hbm, 69, rfl⟩
abbrev main_v44 : Ref sig .tc := ⟨.hbm, 70, rfl⟩
abbrev main_v45 : Ref sig .tc := ⟨.hbm, 71, rfl⟩
abbrev main_v46 : Ref sig .tc := ⟨.hbm, 72, rfl⟩
abbrev main_v47 : Ref sig .tc := ⟨.hbm, 73, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg12_0 : Ref sig .tc := ⟨.vmem, 15, rfl⟩
abbrev cc0_stg12_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem12_0 : DmaSem sig := 15
abbrev cc0_sem12_1 : DmaSem sig := 16

abbrev nD : Nat := 1
abbrev τ : Topo := Topo.v7x

variable {F : FTy → Type} [FloatOps F]

abbrev grid0 : Pipeline.Grid := ⟨1, ![250], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_12 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S10000x32 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S10000x32 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S10000x32 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S32x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S32x64 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x64 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x64 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x64 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 1 → Memref sig .tc .vmem S64x1 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false]

abbrev stage0_11 : Fin 1 → Memref sig .tc .vmem S1x1 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]

abbrev stage0_12 : Fin 2 → Memref sig .tc .vmem S10000x1 .f32 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true]

class Facts₀ : Prop where
  bcast_S_S2500000 : S_.BroadcastsInDim S2500000 (![] : Fin 0 → Fin S2500000.rank)
  bcast_S2500000_S2500000x1_0 : S2500000.BroadcastsInDim S2500000x1 (![0] : Fin 1 → Fin S2500000x1.rank)
  slices_S64x64_S32x64_0_0 : S64x64.Slices ![0, 0] S32x64
  slices_S64x64_S32x64_32_0 : S64x64.Slices ![32, 0] S32x64
  shapeCasts_S64_S1x64 : S64.ShapeCasts S1x64
  shapeCasts_S1_S1x1 : S1.ShapeCasts S1x1
  inb_S10000x32_S10000x32_0_0 : ∀ a, (![0, 0] : Fin 2 → Nat) a + S10000x32.size a ≤ S10000x32.size a
  h_S10000x32 : 0 < S10000x32.numel
  shapeCasts_S10000x32_S10000x32 : S10000x32.ShapeCasts S10000x32
  bitsLt_bf16_f32 : FTy.bits .bf16 < FTy.bits .f32
  inb_S32x64_S32x64_0_0 : ∀ a, (![0, 0] : Fin 2 → Nat) a + S32x64.size a ≤ S32x64.size a
  h_S32x64 : 0 < S32x64.numel
  shapeCasts_S32x64_S32x64 : S32x64.ShapeCasts S32x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S10000x64 : S1x64.Broadcasts S10000x64
  inb_S64x1_S64x1_0_0 : ∀ a, (![0, 0] : Fin 2 → Nat) a + S64x1.size a ≤ S64x1.size a
  h_S64x1 : 0 < S64x1.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S10000x1 : S1x1.Broadcasts S10000x1
  inb_S10000x1_S10000x1_0_0 : ∀ a, (![0, 0] : Fin 2 → Nat) a + S10000x1.size a ≤ S10000x1.size a
  h_S10000x1 : 0 < S10000x1.numel
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  gather_S50000x32_S2500000x1_S2500000x32_1_0_n_n_0_1_132_wf : GatherDims.WF S50000x32 S2500000x1 S2500000x32 [1] [0] [] [0] [] 1 ![1, 32]
  gather_S200x32_S2500000x1_S2500000x32_1_0_n_n_0_1_132_wf : GatherDims.WF S200x32 S2500000x1 S2500000x32 [1] [0] [] [0] [] 1 ![1, 32]
  dot_S10000x32_S32x64_S10000x64_1_0_0_1_n_n_wf : DotDims.WF S10000x32 S32x64 S10000x64 [1] [0] [0] [1] [] []
  dot_S10000x64_S64x1_S10000x1_1_0_0_1_n_n_wf : DotDims.WF S10000x64 S64x1 S10000x1 [1] [0] [0] [1] [] []
  gather_S2500000x1_S500000x1_S500000x1_1_0_n_n_0_1_11_wf : GatherDims.WF S2500000x1 S500000x1 S500000x1 [1] [0] [] [0] [] 1 ![1, 1]
  scatter_S2500000x1_S500000x1_S500000x1_1_0_0_1_wf : ScatterDims.WF S2500000x1 S500000x1 S500000x1 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S10000x32.size a ≤ S2500000x32.size a
  hwx0_0 : ∀ i : grid0.Coords, EltTy.bits .f32 = 32 ∨ (Rect.block (s := S2500000x32) S10000x32.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S10000x32.size a ≤ S2500000x32.size a
  hwx0_1 : ∀ i : grid0.Coords, EltTy.bits .f32 = 32 ∨ (Rect.block (s := S2500000x32) S10000x32.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S10000x32.size a ≤ S2500000x32.size a
  hwx0_2 : ∀ i : grid0.Coords, EltTy.bits .f32 = 32 ∨ (Rect.block (s := S2500000x32) S10000x32.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S32x64.size a ≤ S32x64.size a
  hwx0_3 : ∀ i : grid0.Coords, EltTy.bits .f32 = 32 ∨ (Rect.block (s := S32x64) S32x64.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S32x64.size a ≤ S32x64.size a
  hwx0_4 : ∀ i : grid0.Coords, EltTy.bits .f32 = 32 ∨ (Rect.block (s := S32x64) S32x64.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x64.size a ≤ S1x64.size a
  hwx0_5 : ∀ i : grid0.Coords, EltTy.bits .f32 = 32 ∨ (Rect.block (s := S1x64) S1x64.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x64.size a ≤ S1x64.size a
  hwx0_6 : ∀ i : grid0.Coords, EltTy.bits .f32 = 32 ∨ (Rect.block (s := S1x64) S1x64.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x64.size a ≤ S1x64.size a
  hwx0_7 : ∀ i : grid0.Coords, EltTy.bits .f32 = 32 ∨ (Rect.block (s := S1x64) S1x64.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x64.size a ≤ S1x64.size a
  hwx0_8 : ∀ i : grid0.Coords, EltTy.bits .f32 = 32 ∨ (Rect.block (s := S1x64) S1x64.size (cc0_transform_8 i) (hinb0_8 i)).WholeWords (EltTy.packing .f32)
  hstage0_9 : ∀ j, (stage0_9 j).IsWhole
  nbuf0_9 : grid0.bufCount reads0_9 true = 1
  hreads0_9 : ∀ i i' : grid0.Coords, (∀ a, reads0_9 a = true → i a = i' a) → cc0_transform_9 i = cc0_transform_9 i'
  hinb0_9 : ∀ (i : grid0.Coords) a, (cc0_transform_9 i a + 1) * S1x64.size a ≤ S1x64.size a
  hwx0_9 : ∀ i : grid0.Coords, EltTy.bits .f32 = 32 ∨ (Rect.block (s := S1x64) S1x64.size (cc0_transform_9 i) (hinb0_9 i)).WholeWords (EltTy.packing .f32)
  hstage0_10 : ∀ j, (stage0_10 j).IsWhole
  nbuf0_10 : grid0.bufCount reads0_10 true = 1
  hreads0_10 : ∀ i i' : grid0.Coords, (∀ a, reads0_10 a = true → i a = i' a) → cc0_transform_10 i = cc0_transform_10 i'
  hinb0_10 : ∀ (i : grid0.Coords) a, (cc0_transform_10 i a + 1) * S64x1.size a ≤ S64x1.size a
  hwx0_10 : ∀ i : grid0.Coords, EltTy.bits .f32 = 32 ∨ (Rect.block (s := S64x1) S64x1.size (cc0_transform_10 i) (hinb0_10 i)).WholeWords (EltTy.packing .f32)
  hstage0_11 : ∀ j, (stage0_11 j).IsWhole
  nbuf0_11 : grid0.bufCount reads0_11 true = 1
  hreads0_11 : ∀ i i' : grid0.Coords, (∀ a, reads0_11 a = true → i a = i' a) → cc0_transform_11 i = cc0_transform_11 i'
  hinb0_11 : ∀ (i : grid0.Coords) a, (cc0_transform_11 i a + 1) * S1x1.size a ≤ S1x1.size a
  hwx0_11 : ∀ i : grid0.Coords, EltTy.bits .f32 = 32 ∨ (Rect.block (s := S1x1) S1x1.size (cc0_transform_11 i) (hinb0_11 i)).WholeWords (EltTy.packing .f32)
  hstage0_12 : ∀ j, (stage0_12 j).IsWhole
  nbuf0_12 : grid0.bufCount reads0_12 false = 2
  hreads0_12 : ∀ i i' : grid0.Coords, (∀ a, reads0_12 a = true → i a = i' a) → cc0_transform_12 i = cc0_transform_12 i'
  hinb0_12 : ∀ (i : grid0.Coords) a, (cc0_transform_12 i a + 1) * S10000x1.size a ≤ S2500000x1.size a
  hwx0_12 : ∀ i : grid0.Coords, EltTy.bits .f32 = 32 ∨ (Rect.block (s := S2500000x1) S10000x1.size (cc0_transform_12 i) (hinb0_12 i)).WholeWords (EltTy.packing .f32)

variable [Facts₀]

def gather_S50000x32_S2500000x1_S2500000x32_1_0_n_n_0_1_132 : GatherDims S50000x32 S2500000x1 S2500000x32 where
  offsetDims := [1]
  collapsedSliceDims := [0]
  operandBatchingDims := []
  startIndicesBatchingDims := []
  startIndexMap := [0]
  indexVectorDim := 1
  sliceSizes := ![1, 32]
  wf := gather_S50000x32_S2500000x1_S2500000x32_1_0_n_n_0_1_132_wf
def gather_S200x32_S2500000x1_S2500000x32_1_0_n_n_0_1_132 : GatherDims S200x32 S2500000x1 S2500000x32 where
  offsetDims := [1]
  collapsedSliceDims := [0]
  operandBatchingDims := []
  startIndicesBatchingDims := []
  startIndexMap := [0]
  indexVectorDim := 1
  sliceSizes := ![1, 32]
  wf := gather_S200x32_S2500000x1_S2500000x32_1_0_n_n_0_1_132_wf
def dot_S10000x32_S32x64_S10000x64_1_0_0_1_n_n : DotDims S10000x32 S32x64 S10000x64 where
  lhsContracting := [1]
  rhsContracting := [0]
  lhsNonContracting := [0]
  rhsNonContracting := [1]
  lhsBatch := []
  rhsBatch := []
  wf := dot_S10000x32_S32x64_S10000x64_1_0_0_1_n_n_wf
def dot_S10000x64_S64x1_S10000x1_1_0_0_1_n_n : DotDims S10000x64 S64x1 S10000x1 where
  lhsContracting := [1]
  rhsContracting := [0]
  lhsNonContracting := [0]
  rhsNonContracting := [1]
  lhsBatch := []
  rhsBatch := []
  wf := dot_S10000x64_S64x1_S10000x1_1_0_0_1_n_n_wf
def gather_S2500000x1_S500000x1_S500000x1_1_0_n_n_0_1_11 : GatherDims S2500000x1 S500000x1 S500000x1 where
  offsetDims := [1]
  collapsedSliceDims := [0]
  operandBatchingDims := []
  startIndicesBatchingDims := []
  startIndexMap := [0]
  indexVectorDim := 1
  sliceSizes := ![1, 1]
  wf := gather_S2500000x1_S500000x1_S500000x1_1_0_n_n_0_1_11_wf
def scatter_S2500000x1_S500000x1_S500000x1_1_0_0_1 : ScatterDims S2500000x1 S500000x1 S500000x1 where
  updateWindowDims := [1]
  insertedWindowDims := [0]
  scatterDimsToOperandDims := [0]
  indexVectorDim := 1
  wf := scatter_S2500000x1_S500000x1_S500000x1_1_0_0_1_wf

abbrev win0_0 : Pipeline.Window sig grid0 :=
  Pipeline.Window.ofSpec (Memref.whole main_v6) S10000x32.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v13) S10000x32.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v20) S10000x32.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v21) S32x64.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v22) S32x64.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v23) S1x64.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v24) S1x64.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v25) S1x64.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v26) S1x64.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v27) S1x64.size cc0_transform_9 reads0_9 false true 1 stage0_9 sem0_9
    hrank0 hreads0_9 hinb0_9 nbuf0_9 (Memref.isWhole_whole _) hwx0_9 hstage0_9

abbrev win0_10 : Pipeline.Window sig grid0 :=
  Pipeline.Window.ofSpec (Memref.whole main_arg8) S64x1.size cc0_transform_10 reads0_10 false true 1 stage0_10 sem0_10
    hrank0 hreads0_10 hinb0_10 nbuf0_10 (Memref.isWhole_whole _) hwx0_10 hstage0_10

abbrev win0_11 : Pipeline.Window sig grid0 :=
  Pipeline.Window.ofSpec (Memref.whole main_v28) S1x1.size cc0_transform_11 reads0_11 false true 1 stage0_11 sem0_11
    hrank0 hreads0_11 hinb0_11 nbuf0_11 (Memref.isWhole_whole _) hwx0_11 hstage0_11

abbrev win0_12 : Pipeline.Window sig grid0 :=
  Pipeline.Window.ofSpec (Memref.whole main_v29) S10000x1.size cc0_transform_12 reads0_12 true false 2 stage0_12 sem0_12
    hrank0 hreads0_12 hinb0_12 nbuf0_12 (Memref.isWhole_whole _) hwx0_12 hstage0_12

abbrev win0 : Fin 13 → Pipeline.Window sig grid0 := fun | 0 => win0_0 | 1 => win0_1 | 2 => win0_2 | 3 => win0_3 | 4 => win0_4 | 5 => win0_5 | 6 => win0_6 | 7 => win0_7 | 8 => win0_8 | 9 => win0_9 | 10 => win0_10 | 11 => win0_11 | 12 => win0_12 | ⟨_ + 13, h⟩ => absurd h (Nat.not_lt.2 (Nat.le_add_left _ _))
abbrev spec0 : Fin 13 → Pipeline.WinSpec sig grid0.rank := fun w => (win0 w).toWinSpec

class Facts : Prop extends Facts₀ where

variable [Facts]
-- ==== ReferenceIdeal.lean ====
abbrev S50000x32 : Shape := ⟨2, ![50000, 32]⟩
abbrev S200x32 : Shape := ⟨2, ![200, 32]⟩
abbrev S64x64 : Shape := ⟨2, ![64, 64]⟩
abbrev S64 : Shape := ⟨1, ![64]⟩
abbrev S64x1 : Shape := ⟨2, ![64, 1]⟩
abbrev S1 : Shape := ⟨1, ![1]⟩
abbrev S2500000 : Shape := ⟨1, ![2500000]⟩
abbrev S500000 : Shape := ⟨1, ![500000]⟩
abbrev S_ : Shape := ⟨0, ![]⟩
abbrev S2500000x1 : Shape := ⟨2, ![2500000, 1]⟩
abbrev S2500000x32 : Shape := ⟨2, ![2500000, 32]⟩
abbrev S2500000x64 : Shape := ⟨2, ![2500000, 64]⟩
abbrev S1x64 : Shape := ⟨2, ![1, 64]⟩
abbrev S1x1 : Shape := ⟨2, ![1, 1]⟩
abbrev S500000x1 : Shape := ⟨2, ![500000, 1]⟩

abbrev nBuf : Space → Nat
  | .hbm => 101
  | .vmem => 0
  | .smem => 0
  | _ => 0

abbrev bufTy : (tb : Table) → Fin (tcTables nBuf tb) → BufTy
  | .hbm, ⟨0, _⟩ => ⟨S50000x32, .f32⟩
  | .hbm, ⟨1, _⟩ => ⟨S200x32, .f32⟩
  | .hbm, ⟨2, _⟩ => ⟨S64x64, .f32⟩
  | .hbm, ⟨3, _⟩ => ⟨S64, .f32⟩
  | .hbm, ⟨4, _⟩ => ⟨S64, .f32⟩
  | .hbm, ⟨5, _⟩ => ⟨S64, .f32⟩
  | .hbm, ⟨6, _⟩ => ⟨S64, .f32⟩
  | .hbm, ⟨7, _⟩ => ⟨S64, .f32⟩
  | .hbm, ⟨8, _⟩ => ⟨S64x1, .f32⟩
  | .hbm, ⟨9, _⟩ => ⟨S1, .f32⟩
  | .hbm, ⟨10, _⟩ => ⟨S2500000, .i32⟩
  | .hbm, ⟨11, _⟩ => ⟨S2500000, .i32⟩
  | .hbm, ⟨12, _⟩ => ⟨S2500000, .i32⟩
  | .hbm, ⟨13, _⟩ => ⟨S500000, .i32⟩
  | .hbm, ⟨14, _⟩ => ⟨S_, .i32⟩
  | .hbm, ⟨15, _⟩ => ⟨S2500000, .i32⟩
  | .hbm, ⟨16, _⟩ => ⟨S2500000, .i1⟩
  | .hbm, ⟨17, _⟩ => ⟨S_, .i32⟩
  | .hbm, ⟨18, _⟩ => ⟨S2500000, .i32⟩
  | .hbm, ⟨19, _⟩ => ⟨S2500000, .i32⟩
  | .hbm, ⟨20, _⟩ => ⟨S2500000, .i32⟩
  | .hbm, ⟨21, _⟩ => ⟨S2500000x1, .i32⟩
  | .hbm, ⟨22, _⟩ => ⟨S2500000x32, .f32⟩
  | .hbm, ⟨23, _⟩ => ⟨S_, .i32⟩
  | .hbm, ⟨24, _⟩ => ⟨S2500000, .i32⟩
  | .hbm, ⟨25, _⟩ => ⟨S2500000, .i1⟩
  | .hbm, ⟨26, _⟩ => ⟨S_, .i32⟩
  | .hbm, ⟨27, _⟩ => ⟨S2500000, .i32⟩
  | .hbm, ⟨28, _⟩ => ⟨S2500000, .i32⟩
  | .hbm, ⟨29, _⟩ => ⟨S2500000, .i32⟩
  | .hbm, ⟨30, _⟩ => ⟨S2500000x1, .i32⟩
  | .hbm, ⟨31, _⟩ => ⟨S2500000x32, .f32⟩
  | .hbm, ⟨32, _⟩ => ⟨S2500000x32, .f32⟩
  | .hbm, ⟨33, _⟩ => ⟨S2500000x32, .f32⟩
  | .hbm, ⟨34, _⟩ => ⟨S2500000x32, .f32⟩
  | .hbm, ⟨35, _⟩ => ⟨S2500000x32, .f32⟩
  | .hbm, ⟨36, _⟩ => ⟨S_, .i32⟩
  | .hbm, ⟨37, _⟩ => ⟨S2500000, .i32⟩
  | .hbm, ⟨38, _⟩ => ⟨S2500000, .i1⟩
  | .hbm, ⟨39, _⟩ => ⟨S_, .i32⟩
  | .hbm, ⟨40, _⟩ => ⟨S2500000, .i32⟩
  | .hbm, ⟨41, _⟩ => ⟨S2500000, .i32⟩
  | .hbm, ⟨42, _⟩ => ⟨S2500000, .i32⟩
  | .hbm, ⟨43, _⟩ => ⟨S2500000x1, .i32⟩
  | .hbm, ⟨44, _⟩ => ⟨S2500000x32, .f32⟩
  | .hbm, ⟨45, _⟩ => ⟨S2500000x64, .f32⟩
  | .hbm, ⟨46, _⟩ => ⟨S2500000x64, .f32⟩
  | .hbm, ⟨47, _⟩ => ⟨S1x64, .f32⟩
  | .hbm, ⟨48, _⟩ => ⟨S2500000x64, .f32⟩
  | .hbm, ⟨49, _⟩ => ⟨S2500000x64, .f32⟩
  | .hbm, ⟨50, _⟩ => ⟨S1x64, .f32⟩
  | .hbm, ⟨51, _⟩ => ⟨S2500000x64, .f32⟩
  | .hbm, ⟨52, _⟩ => ⟨S2500000x64, .f32⟩
  | .hbm, ⟨53, _⟩ => ⟨S_, .f32⟩
  | .hbm, ⟨54, _⟩ => ⟨S64, .f32⟩
  | .hbm, ⟨55, _⟩ => ⟨S64, .f32⟩
  | .hbm, ⟨56, _⟩ => ⟨S64, .f32⟩
  | .hbm, ⟨57, _⟩ => ⟨S1x64, .f32⟩
  | .hbm, ⟨58, _⟩ => ⟨S2500000x64, .f32⟩
  | .hbm, ⟨59, _⟩ => ⟨S2500000x64, .f32⟩
  | .hbm, ⟨60, _⟩ => ⟨S1x64, .f32⟩
  | .hbm, ⟨61, _⟩ => ⟨S2500000x64, .f32⟩
  | .hbm, ⟨62, _⟩ => ⟨S2500000x64, .f32⟩
  | .hbm, ⟨63, _⟩ => ⟨S1x64, .f32⟩
  | .hbm, ⟨64, _⟩ => ⟨S2500000x64, .f32⟩
  | .hbm, ⟨65, _⟩ => ⟨S2500000x64, .f32⟩
  | .hbm, ⟨66, _⟩ => ⟨S_, .f32⟩
  | .hbm, ⟨67, _⟩ => ⟨S2500000x64, .f32⟩
  | .hbm, ⟨68, _⟩ => ⟨S2500000x64, .i1⟩
  | .hbm, ⟨69, _⟩ => ⟨S_, .f32⟩
  | .hbm, ⟨70, _⟩ => ⟨S2500000x64, .f32⟩
  | .hbm, ⟨71, _⟩ => ⟨S2500000x64, .f32⟩
  | .hbm, ⟨72, _⟩ => ⟨S2500000x64, .f32⟩
  | .hbm, ⟨73, _⟩ => ⟨S2500000x1, .f32⟩
  | .hbm, ⟨74, _⟩ => ⟨S1x1, .f32⟩
  | .hbm, ⟨75, _⟩ => ⟨S2500000x1, .f32⟩
  | .hbm, ⟨76, _⟩ => ⟨S2500000x1, .f32⟩
  | .hbm, ⟨77, _⟩ => ⟨S_, .i32⟩
  | .hbm, ⟨78, _⟩ => ⟨S500000, .i32⟩
  | .hbm, ⟨79, _⟩ => ⟨S500000, .i1⟩
  | .hbm, ⟨80, _⟩ => ⟨S_, .i32⟩
  | .hbm, ⟨81, _⟩ => ⟨S500000, .i32⟩
  | .hbm, ⟨82, _⟩ => ⟨S500000, .i32⟩
  | .hbm, ⟨83, _⟩ => ⟨S500000, .i32⟩
  | .hbm, ⟨84, _⟩ => ⟨S500000x1, .i32⟩
  | .hbm, ⟨85, _⟩ => ⟨S500000x1, .f32⟩
  | .hbm, ⟨86, _⟩ => ⟨S_, .f32⟩
  | .hbm, ⟨87, _⟩ => ⟨S500000x1, .f32⟩
  | .hbm, ⟨88, _⟩ => ⟨S500000x1, .f32⟩
  | .hbm, ⟨89, _⟩ => ⟨S_, .f32⟩
  | .hbm, ⟨90, _⟩ => ⟨S500000x1, .f32⟩
  | .hbm, ⟨91, _⟩ => ⟨S500000x1, .f32⟩
  | .hbm, ⟨92, _⟩ => ⟨S_, .i32⟩
  | .hbm, ⟨93, _⟩ => ⟨S500000, .i32⟩
  | .hbm, ⟨94, _⟩ => ⟨S500000, .i1⟩
  | .hbm, ⟨95, _⟩ => ⟨S_, .i32⟩
  | .hbm, ⟨96, _⟩ => ⟨S500000, .i32⟩
  | .hbm, ⟨97, _⟩ => ⟨S500000, .i32⟩
  | .hbm, ⟨98, _⟩ => ⟨S500000, .i32⟩
  | .hbm, ⟨99, _⟩ => ⟨S500000x1, .i32⟩
  | .hbm, ⟨100, _⟩ => ⟨S2500000x1, .f32⟩
  | _, _ => ⟨S50000x32, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_c : Ref sig .tc := ⟨.hbm, 14, rfl⟩
abbrev main_v0 : Ref sig .tc := ⟨.hbm, 15, rfl⟩
abbrev main_v1 : Ref sig .tc := ⟨.hbm, 16, rfl⟩
abbrev main_c_0 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_c_1 : Ref sig .tc := ⟨.hbm, 23, rfl⟩
abbrev main_v7 : Ref sig .tc := ⟨.hbm, 24, rfl⟩
abbrev main_v8 : Ref sig .tc := ⟨.hbm, 25, rfl⟩
abbrev main_c_2 : Ref sig .tc := ⟨.hbm, 26, rfl⟩
abbrev main_v9 : Ref sig .tc := ⟨.hbm, 27, rfl⟩
abbrev main_v10 : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_v14 : Ref sig .tc := ⟨.hbm, 32, rfl⟩
abbrev main_v15 : Ref sig .tc := ⟨.hbm, 33, rfl⟩
abbrev main_v16 : Ref sig .tc := ⟨.hbm, 34, rfl⟩
abbrev main_v17 : Ref sig .tc := ⟨.hbm, 35, rfl⟩
abbrev main_c_3 : Ref sig .tc := ⟨.hbm, 36, rfl⟩
abbrev main_v18 : Ref sig .tc := ⟨.hbm, 37, rfl⟩
abbrev main_v19 : Ref sig .tc := ⟨.hbm, 38, rfl⟩
abbrev main_c_4 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩
abbrev main_v27 : Ref sig .tc := ⟨.hbm, 47, rfl⟩
abbrev main_v28 : Ref sig .tc := ⟨.hbm, 48, rfl⟩
abbrev main_v29 : Ref sig .tc := ⟨.hbm, 49, rfl⟩
abbrev main_v30 : Ref sig .tc := ⟨.hbm, 50, rfl⟩
abbrev main_v31 : Ref sig .tc := ⟨.hbm, 51, rfl⟩
abbrev main_v32 : Ref sig .tc := ⟨.hbm, 52, rfl⟩
abbrev main_cst : Ref sig .tc := ⟨.hbm, 53, rfl⟩
abbrev main_v33 : Ref sig .tc := ⟨.hbm, 54, rfl⟩
abbrev main_v34 : Ref sig .tc := ⟨.hbm, 55, rfl⟩
abbrev main_v35 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_cst_5 : Ref sig .tc := ⟨.hbm, 66, rfl⟩
abbrev main_v45 : Ref sig .tc := ⟨.hbm, 67, rfl⟩
abbrev main_v46 : Ref sig .tc := ⟨.hbm, 68, rfl⟩
abbrev main_cst_6 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_v50 : Ref sig .tc := ⟨.hbm, 73, rfl⟩
abbrev main_v51 : Ref sig .tc := ⟨.hbm, 74, rfl⟩
abbrev main_v52 : Ref sig .tc := ⟨.hbm, 75, rfl⟩
abbrev main_v53 : Ref sig .tc := ⟨.hbm, 76, rfl⟩
abbrev main_c_7 : Ref sig .tc := ⟨.hbm, 77, rfl⟩
abbrev main_v54 : Ref sig .tc := ⟨.hbm, 78, rfl⟩
abbrev main_v55 : Ref sig .tc := ⟨.hbm, 79, rfl⟩
abbrev main_c_8 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_cst_9 : Ref sig .tc := ⟨.hbm, 86, rfl⟩
abbrev main_v61 : Ref sig .tc := ⟨.hbm, 87, rfl⟩
abbrev main_v62 : Ref sig .tc := ⟨.hbm, 88, rfl⟩
abbrev main_cst_10 : Ref sig .tc := ⟨.hbm, 89, rfl⟩
abbrev main_v63 : Ref sig .tc := ⟨.hbm, 90, rfl⟩
abbrev main_v64 : Ref sig .tc := ⟨.hbm, 91, rfl⟩
abbrev main_c_11 : Ref sig .tc := ⟨.hbm, 92, rfl⟩
abbrev main_v65 : Ref sig .tc := ⟨.hbm, 93, rfl⟩
abbrev main_v66 : Ref sig .tc := ⟨.hbm, 94, rfl⟩
abbrev main_c_12 : Ref sig .tc := ⟨.hbm, 95, rfl⟩
abbrev main_v67 : Ref sig .tc := ⟨.hbm, 96, rfl⟩
abbrev main_v68 : Ref sig .tc := ⟨.hbm, 97, rfl⟩
abbrev main_v69 : Ref sig .tc := ⟨.hbm, 98, rfl⟩
abbrev main_v70 : Ref sig .tc := ⟨.hbm, 99, rfl⟩
abbrev main_v71 : Ref sig .tc := ⟨.hbm, 100, rfl⟩

abbrev nD : Nat := 1
abbrev τ : Topo := Topo.v7x

variable {F : FTy → Type} [FloatOps F]

class Facts₀ : Prop where
  bcast_S_S2500000 : S_.BroadcastsInDim S2500000 (![] : Fin 0 → Fin S2500000.rank)
  bcast_S2500000_S2500000x1_0 : S2500000.BroadcastsInDim S2500000x1 (![0] : Fin 1 → Fin S2500000x1.rank)
  concatenates_S2500000x32_S2500000x32_S2500000x64_d1 : Shape.Concatenates [S2500000x32, S2500000x32] S2500000x64 1
  bcast_S64_S1x64_1 : S64.BroadcastsInDim S1x64 (![1] : Fin 1 → Fin S1x64.rank)
  bcast_S1x64_S2500000x64_0_1 : S1x64.BroadcastsInDim S2500000x64 (![0, 1] : Fin 2 → Fin S2500000x64.rank)
  bcast_S_S64 : S_.BroadcastsInDim S64 (![] : Fin 0 → Fin S64.rank)
  bcast_S_S2500000x64 : S_.BroadcastsInDim S2500000x64 (![] : Fin 0 → Fin S2500000x64.rank)
  bcast_S1_S1x1_1 : S1.BroadcastsInDim S1x1 (![1] : Fin 1 → Fin S1x1.rank)
  bcast_S1x1_S2500000x1_0_1 : S1x1.BroadcastsInDim S2500000x1 (![0, 1] : Fin 2 → Fin S2500000x1.rank)
  bcast_S_S500000 : S_.BroadcastsInDim S500000 (![] : Fin 0 → Fin S500000.rank)
  bcast_S500000_S500000x1_0 : S500000.BroadcastsInDim S500000x1 (![0] : Fin 1 → Fin S500000x1.rank)
  bcast_S_S500000x1 : S_.BroadcastsInDim S500000x1 (![] : Fin 0 → Fin S500000x1.rank)
  gather_S50000x32_S2500000x1_S2500000x32_1_0_n_n_0_1_132_wf : GatherDims.WF S50000x32 S2500000x1 S2500000x32 [1] [0] [] [0] [] 1 ![1, 32]
  gather_S200x32_S2500000x1_S2500000x32_1_0_n_n_0_1_132_wf : GatherDims.WF S200x32 S2500000x1 S2500000x32 [1] [0] [] [0] [] 1 ![1, 32]
  dot_S2500000x64_S64x64_S2500000x64_1_0_0_1_n_n_wf : DotDims.WF S2500000x64 S64x64 S2500000x64 [1] [0] [0] [1] [] []
  dot_S2500000x64_S64x1_S2500000x1_1_0_0_1_n_n_wf : DotDims.WF S2500000x64 S64x1 S2500000x1 [1] [0] [0] [1] [] []
  gather_S2500000x1_S500000x1_S500000x1_1_0_n_n_0_1_11_wf : GatherDims.WF S2500000x1 S500000x1 S500000x1 [1] [0] [] [0] [] 1 ![1, 1]
  scatter_S2500000x1_S500000x1_S500000x1_1_0_0_1_wf : ScatterDims.WF S2500000x1 S500000x1 S500000x1 [1] [0] [0] 1

variable [Facts₀]

def gather_S50000x32_S2500000x1_S2500000x32_1_0_n_n_0_1_132 : GatherDims S50000x32 S2500000x1 S2500000x32 where
  offsetDims := [1]
  collapsedSliceDims := [0]
  operandBatchingDims := []
  startIndicesBatchingDims := []
  startIndexMap := [0]
  indexVectorDim := 1
  sliceSizes := ![1, 32]
  wf := gather_S50000x32_S2500000x1_S2500000x32_1_0_n_n_0_1_132_wf
def gather_S200x32_S2500000x1_S2500000x32_1_0_n_n_0_1_132 : GatherDims S200x32 S2500000x1 S2500000x32 where
  offsetDims := [1]
  collapsedSliceDims := [0]
  operandBatchingDims := []
  startIndicesBatchingDims := []
  startIndexMap := [0]
  indexVectorDim := 1
  sliceSizes := ![1, 32]
  wf := gather_S200x32_S2500000x1_S2500000x32_1_0_n_n_0_1_132_wf
def dot_S2500000x64_S64x64_S2500000x64_1_0_0_1_n_n : DotDims S2500000x64 S64x64 S2500000x64 where
  lhsContracting := [1]
  rhsContracting := [0]
  lhsNonContracting := [0]
  rhsNonContracting := [1]
  lhsBatch := []
  rhsBatch := []
  wf := dot_S2500000x64_S64x64_S2500000x64_1_0_0_1_n_n_wf
def dot_S2500000x64_S64x1_S2500000x1_1_0_0_1_n_n : DotDims S2500000x64 S64x1 S2500000x1 where
  lhsContracting := [1]
  rhsContracting := [0]
  lhsNonContracting := [0]
  rhsNonContracting := [1]
  lhsBatch := []
  rhsBatch := []
  wf := dot_S2500000x64_S64x1_S2500000x1_1_0_0_1_n_n_wf
def gather_S2500000x1_S500000x1_S500000x1_1_0_n_n_0_1_11 : GatherDims S2500000x1 S500000x1 S500000x1 where
  offsetDims := [1]
  collapsedSliceDims := [0]
  operandBatchingDims := []
  startIndicesBatchingDims := []
  startIndexMap := [0]
  indexVectorDim := 1
  sliceSizes := ![1, 1]
  wf := gather_S2500000x1_S500000x1_S500000x1_1_0_n_n_0_1_11_wf
def scatter_S2500000x1_S500000x1_S500000x1_1_0_0_1 : ScatterDims S2500000x1 S500000x1 S500000x1 where
  updateWindowDims := [1]
  insertedWindowDims := [0]
  scatterDimsToOperandDims := [0]
  indexVectorDim := 1
  wf := scatter_S2500000x1_S500000x1_S500000x1_1_0_0_1_wf

class Facts : Prop extends Facts₀ where

variable [Facts]
-- ==== Proof.Spec.lean ====
/-
  One edge's gate weight, as a number.

  For one edge the data are: the two endpoint embeddings `s`, `d` (32 numbers each), the relation embedding `r`
  (32 numbers), the two halves `wa`, `wb` of the first layer's 64 x 64 weight matrix (rows 0..31 meet the
  similarity features, rows 32..63 the relation embedding), the per-unit bias, batch-norm mean, variance, scale and
  shift, the second layer's 64 weights `ws` and its bias `bs`.  The weight is

      ( sum over the 64 hidden units j of  leaky( normed_j * gamma_j + beta_j ) * ws_j )  +  bs,
      normed_j = ( sum_k exp(-|s_k - d_k|) * wa_k_j  +  sum_k r_k * wb_k_j  +  b0_j  -  mean_j ) * rsqrt(var_j + eps),
      leaky y  = y  if  y >= 0,  else  slope * y.

  Everything is read on the extended reals; the three float literals (eps, slope, zero) stay the binary words the
  programs carry and are never evaluated.  The one law used later is that a sum over 64 terms is the sum over the first
  32 plus the sum over the last 32: it holds in any commutative monoid, so no finiteness of the inputs is needed.
-/
import Idealize.ShloMosaic.Lib.ValueIdx
import Idealize.ShloMosaic.PureOps.Ideal.Laws

open scoped BigOperators

noncomputable section

namespace Cert.EdgeGate

open Idealize.ShloMosaic

/-- The batch-norm epsilon as its binary word. -/
def eps : EReal := Ideal.ofBits .f32 0x3727C5AC#32
/-- The leaky slope as its binary word. -/
def slope : EReal := Ideal.ofBits .f32 0x3C23D70A#32
/-- The zero word the comparison is made against. -/
def zero : EReal := Ideal.ofBits .f32 0x00000000#32

/-- The similarity feature of two coordinates: `exp (-|a - b|)`, the absolute value as `max x (-x)`. -/
def sim (a b : EReal) : EReal := Ideal.exp (-(max (a - b) (-(a - b))))

/-- A hidden unit before its scale and shift: the first layer's affine map, centred and divided by the deviation. -/
def normed (s d r wa wb : Fin 32 → EReal) (b0 mean var : EReal) : EReal :=
  ((∑ k : Fin 32, sim (s k) (d k) * wa k + ∑ k : Fin 32, r k * wb k) + b0 - mean) * Ideal.rsqrt (var + eps)

/-- The leaky rectifier on the extended reals: the comparison is the float comparison `>=` against zero. -/
def leaky (y : EReal) : EReal := Scalar.select (Ideal.cmp .oge y zero) y (slope * y)

/-- The gate weight of one edge. -/
def gate (s d r : Fin 32 → EReal) (wa wb : Fin 32 → Fin 64 → EReal) (b0 mean var gamma beta ws : Fin 64 → EReal)
    (bs : EReal) : EReal :=
  (∑ j : Fin 64, leaky (normed s d r (fun k => wa k j) (fun k => wb k j) (b0 j) (mean j) (var j) * gamma j + beta j) * ws j) + bs

/-- Zero less a number is its negative: the kernel writes `0 - |x|` where the reference writes `-|x|`. -/
theorem zero_sub_eq (x : EReal) : zero - x = -x := by
  unfold zero
  rw [Ideal.ofBits_zero_f32, zero_sub]

/-- A sum over 64 terms is the sum over the first 32 plus the sum over the last 32. -/
theorem sum_halves {M : Type*} [AddCommMonoid M] (f : Fin 64 → M) :
    ∑ k : Fin 64, f k = ∑ k : Fin 32, f (Fin.castAdd 32 k) + ∑ k : Fin 32, f (Fin.natAdd 32 k) :=
  Fin.sum_univ_add (M := M) (a := 32) (b := 32) f

end Cert.EdgeGate

end
-- ==== Proof.LibPlainDot.lean ====
/-
  A rows-by-columns contraction read as a plain sum.

  Take operands of shapes [A, K] and [K, B] and a result of shape [A, B], with dimension numbers that say: no batch
  axes; the left operand keeps its axis 0 and the right its axis 1; axis 1 of the left is contracted against axis 0 of
  the right. The contraction's own index set is then a one-axis shape of extent K, and the sum over it of
  `x (left index) * y (right index)` at the result index (p, q) is `∑ k < K, x (p, k) * y (k, q)`: on its kept axis
  each operand reads the result's coordinate, on its contracted axis the contraction's one coordinate.

  Stated for ANY record with these dimension numbers and for any A, K, B, so the same lemma reads a matrix product
  of one block and a `dot_general` of a whole array. The extended reals enter only as the type the products are
  taken in: nothing here uses more than the sum's re-indexing along a bijection.
-/
import Idealize.ShloMosaic.Lib.ValueIdx
import Idealize.ShloMosaic.PureOps.Ideal.Laws

open scoped BigOperators

namespace Cert.PlainDot

open Idealize.ShloMosaic Idealize.ShloMosaic.ValueIdx

variable {A K B : Nat} (d : DotDims ⟨2, ![A, K]⟩ ⟨2, ![K, B]⟩ ⟨2, ![A, B]⟩)

/-- One index read at two spellings of one position gives one number. -/
theorem val_at_eq {s : Shape} (j : s.Idx) (u v : Nat) (hu : u < s.rank) (hv : v < s.rank) (h : u = v) :
    (j ⟨u, hu⟩).val = (j ⟨v, hv⟩).val := by
  subst h; rfl

/-- On its kept axis (axis 0) the left operand's index is the result's row coordinate: with no batch axis, the
    left operand's one kept axis is the result's axis 0. -/
theorem lhs_row (hlb : d.lhsBatch = []) (hln : d.lhsNonContracting = [0])
    (j : (⟨2, ![A, B]⟩ : Shape).Idx) (k : d.contr.Idx) : (d.lhsIdx j k 0).val = (j 0).val := by
  unfold DotDims.lhsIdx
  rw [dif_neg (by rw [hlb]; exact List.not_mem_nil), dif_pos (by rw [hln]; exact List.mem_singleton.mpr rfl)]
  show (j ⟨_, _⟩).val = (j ⟨0, _⟩).val
  exact val_at_eq j _ _ _ _ (by simp [hlb, hln])

/-- On its kept axis (axis 1) the right operand's index is the result's column coordinate: the result's axes are
    the batch axes (none), then the left's kept axes (one), then the right's kept axes, so this one is axis 1. -/
theorem rhs_col (hlb : d.lhsBatch = []) (hln : d.lhsNonContracting = [0]) (hrb : d.rhsBatch = [])
    (hrn : d.rhsNonContracting = [1]) (j : (⟨2, ![A, B]⟩ : Shape).Idx) (k : d.contr.Idx) :
    (d.rhsIdx j k 1).val = (j 1).val := by
  unfold DotDims.rhsIdx
  rw [dif_neg (by rw [hrb]; exact List.not_mem_nil), dif_pos (by rw [hrn]; exact List.mem_singleton.mpr rfl)]
  show (j ⟨_, _⟩).val = (j ⟨1, _⟩).val
  exact val_at_eq j _ _ _ _ (by simp [hlb, hln, hrn])

/-- THE SUM: over the contraction's index set, the products of the operands at the record's operand indices are the
    products along row `p` of the left and column `q` of the right. -/
theorem sum_eq (hlb : d.lhsBatch = []) (hln : d.lhsNonContracting = [0]) (hlc : d.lhsContracting = [1])
    (hrb : d.rhsBatch = []) (hrn : d.rhsNonContracting = [1]) (hrc : d.rhsContracting = [0])
    (hr : d.contr.rank = 1) (hs : d.contr.size ⟨0, by omega⟩ = K)
    (x : (⟨2, ![A, K]⟩ : Shape).Idx → EReal) (y : (⟨2, ![K, B]⟩ : Shape).Idx → EReal) (p : Fin A) (q : Fin B) :
    ∑ k : d.contr.Idx, x (d.lhsIdx (ix2 p q) k) * y (d.rhsIdx (ix2 p q) k) = ∑ k : Fin K, x (ix2 p k) * y (ix2 k q) := by
  rw [← Equiv.sum_comp (contrEquiv1 d K hr hs).symm]
  refine Finset.sum_congr rfl fun k _ => ?_
  have hk := contrEquiv1_symm_val d K hr hs k
  have el : d.lhsIdx (ix2 p q) ((contrEquiv1 d K hr hs).symm k) = ix2 p k := funext fun a => Fin.ext (by
    match a with
    | ⟨0, _⟩ => exact lhs_row d hlb hln _ _
    | ⟨1, _⟩ => exact (d.lhsIdx_val_of_single hlc _ _).trans hk)
  have er : d.rhsIdx (ix2 p q) ((contrEquiv1 d K hr hs).symm k) = ix2 k q := funext fun a => Fin.ext (by
    match a with
    | ⟨0, _⟩ => exact (d.rhsIdx_val_of_single hrc _ _).trans hk
    | ⟨1, _⟩ => exact rhs_col d hlb hln hrb hrn _ _)
  rw [el, er]

end Cert.PlainDot
-- ==== Proof.Payload.lean ====
/-
  What the kernel's body stores, read at one entry.

  At row `p` of a block (10000 edges) the body's one store holds the gate weight of the edge in that row: the first
  payload is the normalised hidden layer (two 32-deep products into zero accumulators, the bias, the mean, the
  reciprocal deviation), the second its scale, shift, leaky rectifier and the 64-deep product with the second layer.
  The conversions to bf16 are the identity on the extended reals, a product into a zero accumulator is the plain sum
  of products, and a one-row block broadcast over the rows reads its one row.
-/
import proofs.«153350_j36103495090409_1_alg».proof.Proof.Gen.KernelIdeal.Skeleton
import proofs.«153350_j36103495090409_1_alg».proof.Proof.Spec
import proofs.«153350_j36103495090409_1_alg».proof.Proof.LibPlainDot
import Idealize.ShloMosaic.Lib.ValueIdx
import Idealize.ShloMosaic.Lib.ValueLayout
import Idealize.ShloMosaic.Lib.Pipeline.Value
import Idealize.ShloMosaic.PureOps.Ideal.Laws

open scoped BigOperators

noncomputable section

namespace Cert.EdgeGate.Body

open Idealize.ShloMosaic Idealize.ShloMosaic.ValueIdx Cert.KernelIdeal Cert.KernelIdeal.Gen Cert.EdgeGate

/-- A 32-deep product of a block of rows with a 32 x 64 matrix, into a zero accumulator: the plain sum. -/
theorem dot32 (x : FVec Ideal S10000x32 .bf16) (w : FVec Ideal S32x64 .bf16) (p : Fin 10000) (j : Fin 64) :
    matmul dot_S10000x32_S32x64_S10000x64_1_0_0_1_n_n none x w (constant (F := Ideal) S10000x64 .f32 0x00000000#32) (ix2 p j)
      = ∑ k : Fin 32, x (ix2 p k) * w (ix2 k j) :=
  (Ideal.matmul_constant_zero_apply _ none x w (ix2 p j)).trans
    (Cert.PlainDot.sum_eq dot_S10000x32_S32x64_S10000x64_1_0_0_1_n_n rfl rfl rfl rfl rfl rfl rfl rfl x w p j)

/-- The 64-deep product of the hidden layer with the second layer's column, into a zero accumulator. -/
theorem dot64 (x : FVec Ideal S10000x64 .bf16) (w : FVec Ideal S64x1 .bf16) (p : Fin 10000) (q : Fin 1) :
    matmul dot_S10000x64_S64x1_S10000x1_1_0_0_1_n_n none x w (constant (F := Ideal) S10000x1 .f32 0x00000000#32) (ix2 p q)
      = ∑ k : Fin 64, x (ix2 p k) * w (ix2 k q) :=
  (Ideal.matmul_constant_zero_apply _ none x w (ix2 p q)).trans
    (Cert.PlainDot.sum_eq dot_S10000x64_S64x1_S10000x1_1_0_0_1_n_n rfl rfl rfl rfl rfl rfl rfl rfl x w p q)

/-- The first payload at `(p, j)`: hidden unit `j` of the edge in row `p`, normalised. -/
theorem normed_at (x0 x1 x2 : Vec Ideal S10000x32 .f32) (x3 x4 : Vec Ideal S32x64 .f32) (x5 x9 x8 : Vec Ideal S1x64 .f32)
    (p : Fin 10000) (j : Fin 64) :
    k0_pay2 (F := Ideal) x0 x1 x2 x3 x4 x5 x9 x8 (ix2 p j)
      = normed (fun k => x0 (ix2 p k)) (fun k => x1 (ix2 p k)) (fun k => x2 (ix2 p k)) (fun k => x3 (ix2 k j))
          (fun k => x4 (ix2 k j)) (x5 (ix2 (0 : Fin 1) j)) (x8 (ix2 (0 : Fin 1) j)) (x9 (ix2 (0 : Fin 1) j)) := by
  unfold k0_pay2 normed
  dsimp only
  rw [mulf_apply, subf_apply, addf_apply, addf_apply, dot32, dot32]
  rw [broadcastTo_1b_ab_apply, broadcastTo_1b_ab_apply, broadcastTo_1b_ab_apply]
  simp only [shapeCast_self]
  have hs : ∀ k : Fin 32, exp (subf (broadcast S10000x32 (FloatOps.ofBits (F := Ideal) .f32 0x00000000#32)) (absf (subf x0 x1))) (ix2 p k)
      = sim (x0 (ix2 p k)) (x1 (ix2 p k)) := fun k => (congrArg Ideal.exp (zero_sub_eq _)).trans rfl
  simp only [truncf_apply, hs]
  rfl

/-- THE STORED VALUE at `(p, q)`: the gate weight of the edge in row `p`. -/
theorem gate_at (x0 x1 x2 : Vec Ideal S10000x32 .f32) (x3 x4 : Vec Ideal S32x64 .f32) (x5 x6 x7 x8 x9 : Vec Ideal S1x64 .f32)
    (x10 : Vec Ideal S64x1 .f32) (x11 : Vec Ideal S1x1 .f32) (p : Fin 10000) (q : Fin 1) :
    k0_pay1 (F := Ideal) (k0_pay2 x0 x1 x2 x3 x4 x5 x9 x8) x6 x7 x10 x11 (ix2 p q)
      = gate (fun k => x0 (ix2 p k)) (fun k => x1 (ix2 p k)) (fun k => x2 (ix2 p k)) (fun k j => x3 (ix2 k j)) (fun k j => x4 (ix2 k j))
          (fun j => x5 (ix2 (0 : Fin 1) j)) (fun j => x8 (ix2 (0 : Fin 1) j)) (fun j => x9 (ix2 (0 : Fin 1) j))
          (fun j => x6 (ix2 (0 : Fin 1) j)) (fun j => x7 (ix2 (0 : Fin 1) j)) (fun j => x10 (ix2 j q)) (x11 (ix2 (0 : Fin 1) q)) := by
  unfold k0_pay1 gate
  dsimp only
  rw [addf_apply, dot64, broadcastTo_1b_ab_apply]
  simp only [shapeCast_self]
  refine congrArg (· + x11 (ix2 (0 : Fin 1) q)) (Finset.sum_congr rfl fun j _ => ?_)
  have hY : (addf (mulf (k0_pay2 (F := Ideal) x0 x1 x2 x3 x4 x5 x9 x8) (broadcastTo S10000x64 x6 broadcasts_S1x64_S10000x64))
        (broadcastTo S10000x64 x7 broadcasts_S1x64_S10000x64)) (ix2 p j)
      = normed (fun k => x0 (ix2 p k)) (fun k => x1 (ix2 p k)) (fun k => x2 (ix2 p k)) (fun k => x3 (ix2 k j))
          (fun k => x4 (ix2 k j)) (x5 (ix2 (0 : Fin 1) j)) (x8 (ix2 (0 : Fin 1) j)) (x9 (ix2 (0 : Fin 1) j)) * x6 (ix2 (0 : Fin 1) j)
        + x7 (ix2 (0 : Fin 1) j) := by
    rw [addf_apply, mulf_apply, broadcastTo_1b_ab_apply, broadcastTo_1b_ab_apply, normed_at]
  rw [truncf_apply, truncf_apply, select_apply, cmpf_apply, mulf_apply, hY]
  rfl

end Cert.EdgeGate.Body

end
-- ==== Proof.Region.lean ====
/-
  From the blocks the grid points write back to the whole weight array.

  Grid point `t` (of 250) stages rows `10000 t .. 10000 t + 9999` of the three per-edge arrays and the whole of the
  nine small parameter arrays, and writes back rows `10000 t .. 10000 t + 9999` of the one-column result.  So what
  point `t` writes back is block `t` of ONE function of the arrays as the region finds them: at row `e` the gate
  weight of edge `e`.  The 250 blocks tile the 2500000 rows (row `e` is in block `e / 10000`), so after the region
  the result array is that function.
-/
import proofs.«153350_j36103495090409_1_alg».proof.Proof.Gen.KernelIdeal.Frame
import proofs.«153350_j36103495090409_1_alg».proof.Proof.Payload
import Idealize.ShloMosaic.Lib.Pipeline.Value
import Idealize.ShloMosaic.Lib.ValueIdx

set_option maxRecDepth 16384

open scoped BigOperators

noncomputable section

namespace Cert.EdgeGate.Region

open Idealize.ShloMosaic Idealize.ShloMosaic.ValueIdx Idealize.SL.Sem Cert.KernelIdeal Cert.KernelIdeal.Gen Cert.EdgeGate
open Idealize.ShloMosaic.Pipeline (Dat)

variable (m : (ℓ : Loc nD τ sig) → Buf (Elt Ideal) ℓ)

/-- The gate weight of edge `e`, from the arrays as the region finds them. -/
def weightAt (c : Dev nD) (e : Fin 2500000) (q : Fin 1) : EReal :=
  gate (fun k => V m c main_v6 (ix2 e k)) (fun k => V m c main_v13 (ix2 e k)) (fun k => V m c main_v20 (ix2 e k))
    (fun k j => V m c main_v21 (ix2 k j)) (fun k j => V m c main_v22 (ix2 k j))
    (fun j => V m c main_v23 (ix2 (0 : Fin 1) j)) (fun j => V m c main_v26 (ix2 (0 : Fin 1) j)) (fun j => V m c main_v27 (ix2 (0 : Fin 1) j))
    (fun j => V m c main_v24 (ix2 (0 : Fin 1) j)) (fun j => V m c main_v25 (ix2 (0 : Fin 1) j))
    (fun j => V m c main_arg8 (ix2 j q)) (V m c main_v28 (ix2 (0 : Fin 1) q))

/-- The whole weight array: row `e` holds the gate weight of edge `e`. -/
def weights (c : Dev nD) : S2500000x1.Idx → EReal := fun i => weightAt m c (i 0) (i 1)

theorem hz : (![0, 0] : Fin 2 → Nat) = fun _ => 0 := funext fun a => by fin_cases a <;> rfl

/-! ## The printed index maps over the grid

The three per-edge windows and the result window are at block `(t, 0)`, the nine parameter windows at block `(0, 0)`:
decided once over the 250 points. -/

theorem idx0 : ∀ t : Fin cfg0.N, win0_0.index t (0 : Fin 2) = t.val ∧ win0_0.index t (1 : Fin 2) = 0 :=
  (by decide +kernel : ∀ t : Fin grid0.N, _)
theorem idx1 : ∀ t : Fin cfg0.N, win0_1.index t (0 : Fin 2) = t.val ∧ win0_1.index t (1 : Fin 2) = 0 :=
  (by decide +kernel : ∀ t : Fin grid0.N, _)
theorem idx2 : ∀ t : Fin cfg0.N, win0_2.index t (0 : Fin 2) = t.val ∧ win0_2.index t (1 : Fin 2) = 0 :=
  (by decide +kernel : ∀ t : Fin grid0.N, _)
theorem idx3 : ∀ t : Fin cfg0.N, win0_3.index t (0 : Fin 2) = 0 ∧ win0_3.index t (1 : Fin 2) = 0 :=
  (by decide +kernel : ∀ t : Fin grid0.N, _)
theorem idx4 : ∀ t : Fin cfg0.N, win0_4.index t (0 : Fin 2) = 0 ∧ win0_4.index t (1 : Fin 2) = 0 :=
  (by decide +kernel : ∀ t : Fin grid0.N, _)
theorem idx5 : ∀ t : Fin cfg0.N, win0_5.index t (0 : Fin 2) = 0 ∧ win0_5.index t (1 : Fin 2) = 0 :=
  (by decide +kernel : ∀ t : Fin grid0.N, _)
theorem idx6 : ∀ t : Fin cfg0.N, win0_6.index t (0 : Fin 2) = 0 ∧ win0_6.index t (1 : Fin 2) = 0 :=
  (by decide +kernel : ∀ t : Fin grid0.N, _)
theorem idx7 : ∀ t : Fin cfg0.N, win0_7.index t (0 : Fin 2) = 0 ∧ win0_7.index t (1 : Fin 2) = 0 :=
  (by decide +kernel : ∀ t : Fin grid0.N, _)
theorem idx8 : ∀ t : Fin cfg0.N, win0_8.index t (0 : Fin 2) = 0 ∧ win0_8.index t (1 : Fin 2) = 0 :=
  (by decide +kernel : ∀ t : Fin grid0.N, _)
theorem idx9 : ∀ t : Fin cfg0.N, win0_9.index t (0 : Fin 2) = 0 ∧ win0_9.index t (1 : Fin 2) = 0 :=
  (by decide +kernel : ∀ t : Fin grid0.N, _)
theorem idx10 : ∀ t : Fin cfg0.N, win0_10.index t (0 : Fin 2) = 0 ∧ win0_10.index t (1 : Fin 2) = 0 :=
  (by decide +kernel : ∀ t : Fin grid0.N, _)
theorem idx11 : ∀ t : Fin cfg0.N, win0_11.index t (0 : Fin 2) = 0 ∧ win0_11.index t (1 : Fin 2) = 0 :=
  (by decide +kernel : ∀ t : Fin grid0.N, _)
theorem idx12 : ∀ t : Fin cfg0.N, win0_12.index t (0 : Fin 2) = t.val ∧ win0_12.index t (1 : Fin 2) = 0 :=
  (by decide +kernel : ∀ t : Fin grid0.N, _)

/-! ## Each input block, read where its rectangle says -/

/-- Row `r` of window 0's block at point `t` is row `10000 t + r` of its array. -/
theorem read0 (c : Dev nD) (t : Fin cfg0.N) (r : Fin 10000) (e : Fin 2500000) (he : e.val = t.val * 10000 + r.val) (k : Fin 32) :
    iblk m c 0 t (ix2 r k) = V m c main_v6 (ix2 e k) := by
  obtain ⟨a0, a1⟩ := idx0 t
  show V m c main_v6 (((cfg0.win 0).blk t).view.emb (ix2 r k)) = _
  have h : ((cfg0.win 0).blk t).view.emb (ix2 r k) = (ix2 e k : S2500000x32.Idx) := by
    funext a; apply Fin.ext
    match a with
    | ⟨0, _⟩ => show win0_0.index t (0 : Fin 2) * 10000 + 1 * r.val = e.val; rw [a0, he]; omega
    | ⟨1, _⟩ => show win0_0.index t (1 : Fin 2) * 32 + 1 * k.val = k.val; rw [a1]; omega
  rw [h]

/-- Row `r` of window 1's block at point `t` is row `10000 t + r` of its array. -/
theorem read1 (c : Dev nD) (t : Fin cfg0.N) (r : Fin 10000) (e : Fin 2500000) (he : e.val = t.val * 10000 + r.val) (k : Fin 32) :
    iblk m c 1 t (ix2 r k) = V m c main_v13 (ix2 e k) := by
  obtain ⟨a0, a1⟩ := idx1 t
  show V m c main_v13 (((cfg0.win 1).blk t).view.emb (ix2 r k)) = _
  have h : ((cfg0.win 1).blk t).view.emb (ix2 r k) = (ix2 e k : S2500000x32.Idx) := by
    funext a; apply Fin.ext
    match a with
    | ⟨0, _⟩ => show win0_1.index t (0 : Fin 2) * 10000 + 1 * r.val = e.val; rw [a0, he]; omega
    | ⟨1, _⟩ => show win0_1.index t (1 : Fin 2) * 32 + 1 * k.val = k.val; rw [a1]; omega
  rw [h]

/-- Row `r` of window 2's block at point `t` is row `10000 t + r` of its array. -/
theorem read2 (c : Dev nD) (t : Fin cfg0.N) (r : Fin 10000) (e : Fin 2500000) (he : e.val = t.val * 10000 + r.val) (k : Fin 32) :
    iblk m c 2 t (ix2 r k) = V m c main_v20 (ix2 e k) := by
  obtain ⟨a0, a1⟩ := idx2 t
  show V m c main_v20 (((cfg0.win 2).blk t).view.emb (ix2 r k)) = _
  have h : ((cfg0.win 2).blk t).view.emb (ix2 r k) = (ix2 e k : S2500000x32.Idx) := by
    funext a; apply Fin.ext
    match a with
    | ⟨0, _⟩ => show win0_2.index t (0 : Fin 2) * 10000 + 1 * r.val = e.val; rw [a0, he]; omega
    | ⟨1, _⟩ => show win0_2.index t (1 : Fin 2) * 32 + 1 * k.val = k.val; rw [a1]; omega
  rw [h]

/-- Window 3's one block is its whole array. -/
theorem read3 (c : Dev nD) (t : Fin cfg0.N) (u : Fin 32) (v : Fin 64) :
    iblk m c 3 t (ix2 u v) = V m c main_v21 (ix2 u v) := by
  obtain ⟨a0, a1⟩ := idx3 t
  show V m c main_v21 (((cfg0.win 3).blk t).view.emb (ix2 u v)) = _
  have h : ((cfg0.win 3).blk t).view.emb (ix2 u v) = (ix2 u v : S32x64.Idx) := by
    funext a; apply Fin.ext
    match a with
    | ⟨0, _⟩ => show win0_3.index t (0 : Fin 2) * 32 + 1 * u.val = u.val; rw [a0]; omega
    | ⟨1, _⟩ => show win0_3.index t (1 : Fin 2) * 64 + 1 * v.val = v.val; rw [a1]; omega
  rw [h]

/-- Window 4's one block is its whole array. -/
theorem read4 (c : Dev nD) (t : Fin cfg0.N) (u : Fin 32) (v : Fin 64) :
    iblk m c 4 t (ix2 u v) = V m c main_v22 (ix2 u v) := by
  obtain ⟨a0, a1⟩ := idx4 t
  show V m c main_v22 (((cfg0.win 4).blk t).view.emb (ix2 u v)) = _
  have h : ((cfg0.win 4).blk t).view.emb (ix2 u v) = (ix2 u v : S32x64.Idx) := by
    funext a; apply Fin.ext
    match a with
    | ⟨0, _⟩ => show win0_4.index t (0 : Fin 2) * 32 + 1 * u.val = u.val; rw [a0]; omega
    | ⟨1, _⟩ => show win0_4.index t (1 : Fin 2) * 64 + 1 * v.val = v.val; rw [a1]; omega
  rw [h]

/-- Window 5's one block is its whole array. -/
theorem read5 (c : Dev nD) (t : Fin cfg0.N) (u : Fin 1) (v : Fin 64) :
    iblk m c 5 t (ix2 u v) = V m c main_v23 (ix2 u v) := by
  obtain ⟨a0, a1⟩ := idx5 t
  show V m c main_v23 (((cfg0.win 5).blk t).view.emb (ix2 u v)) = _
  have h : ((cfg0.win 5).blk t).view.emb (ix2 u v) = (ix2 u v : S1x64.Idx) := by
    funext a; apply Fin.ext
    match a with
    | ⟨0, _⟩ => show win0_5.index t (0 : Fin 2) * 1 + 1 * u.val = u.val; rw [a0]; omega
    | ⟨1, _⟩ => show win0_5.index t (1 : Fin 2) * 64 + 1 * v.val = v.val; rw [a1]; omega
  rw [h]

/-- Window 6's one block is its whole array. -/
theorem read6 (c : Dev nD) (t : Fin cfg0.N) (u : Fin 1) (v : Fin 64) :
    iblk m c 6 t (ix2 u v) = V m c main_v24 (ix2 u v) := by
  obtain ⟨a0, a1⟩ := idx6 t
  show V m c main_v24 (((cfg0.win 6).blk t).view.emb (ix2 u v)) = _
  have h : ((cfg0.win 6).blk t).view.emb (ix2 u v) = (ix2 u v : S1x64.Idx) := by
    funext a; apply Fin.ext
    match a with
    | ⟨0, _⟩ => show win0_6.index t (0 : Fin 2) * 1 + 1 * u.val = u.val; rw [a0]; omega
    | ⟨1, _⟩ => show win0_6.index t (1 : Fin 2) * 64 + 1 * v.val = v.val; rw [a1]; omega
  rw [h]

/-- Window 7's one block is its whole array. -/
theorem read7 (c : Dev nD) (t : Fin cfg0.N) (u : Fin 1) (v : Fin 64) :
    iblk m c 7 t (ix2 u v) = V m c main_v25 (ix2 u v) := by
  obtain ⟨a0, a1⟩ := idx7 t
  show V m c main_v25 (((cfg0.win 7).blk t).view.emb (ix2 u v)) = _
  have h : ((cfg0.win 7).blk t).view.emb (ix2 u v) = (ix2 u v : S1x64.Idx) := by
    funext a; apply Fin.ext
    match a with
    | ⟨0, _⟩ => show win0_7.index t (0 : Fin 2) * 1 + 1 * u.val = u.val; rw [a0]; omega
    | ⟨1, _⟩ => show win0_7.index t (1 : Fin 2) * 64 + 1 * v.val = v.val; rw [a1]; omega
  rw [h]

/-- Window 8's one block is its whole array. -/
theorem read8 (c : Dev nD) (t : Fin cfg0.N) (u : Fin 1) (v : Fin 64) :
    iblk m c 8 t (ix2 u v) = V m c main_v26 (ix2 u v) := by
  obtain ⟨a0, a1⟩ := idx8 t
  show V m c main_v26 (((cfg0.win 8).blk t).view.emb (ix2 u v)) = _
  have h : ((cfg0.win 8).blk t).view.emb (ix2 u v) = (ix2 u v : S1x64.Idx) := by
    funext a; apply Fin.ext
    match a with
    | ⟨0, _⟩ => show win0_8.index t (0 : Fin 2) * 1 + 1 * u.val = u.val; rw [a0]; omega
    | ⟨1, _⟩ => show win0_8.index t (1 : Fin 2) * 64 + 1 * v.val = v.val; rw [a1]; omega
  rw [h]

/-- Window 9's one block is its whole array. -/
theorem read9 (c : Dev nD) (t : Fin cfg0.N) (u : Fin 1) (v : Fin 64) :
    iblk m c 9 t (ix2 u v) = V m c main_v27 (ix2 u v) := by
  obtain ⟨a0, a1⟩ := idx9 t
  show V m c main_v27 (((cfg0.win 9).blk t).view.emb (ix2 u v)) = _
  have h : ((cfg0.win 9).blk t).view.emb (ix2 u v) = (ix2 u v : S1x64.Idx) := by
    funext a; apply Fin.ext
    match a with
    | ⟨0, _⟩ => show win0_9.index t (0 : Fin 2) * 1 + 1 * u.val = u.val; rw [a0]; omega
    | ⟨1, _⟩ => show win0_9.index t (1 : Fin 2) * 64 + 1 * v.val = v.val; rw [a1]; omega
  rw [h]

/-- Window 10's one block is its whole array. -/
theorem read10 (c : Dev nD) (t : Fin cfg0.N) (u : Fin 64) (v : Fin 1) :
    iblk m c 10 t (ix2 u v) = V m c main_arg8 (ix2 u v) := by
  obtain ⟨a0, a1⟩ := idx10 t
  show V m c main_arg8 (((cfg0.win 10).blk t).view.emb (ix2 u v)) = _
  have h : ((cfg0.win 10).blk t).view.emb (ix2 u v) = (ix2 u v : S64x1.Idx) := by
    funext a; apply Fin.ext
    match a with
    | ⟨0, _⟩ => show win0_10.index t (0 : Fin 2) * 64 + 1 * u.val = u.val; rw [a0]; omega
    | ⟨1, _⟩ => show win0_10.index t (1 : Fin 2) * 1 + 1 * v.val = v.val; rw [a1]; omega
  rw [h]

/-- Window 11's one block is its whole array. -/
theorem read11 (c : Dev nD) (t : Fin cfg0.N) (u : Fin 1) (v : Fin 1) :
    iblk m c 11 t (ix2 u v) = V m c main_v28 (ix2 u v) := by
  obtain ⟨a0, a1⟩ := idx11 t
  show V m c main_v28 (((cfg0.win 11).blk t).view.emb (ix2 u v)) = _
  have h : ((cfg0.win 11).blk t).view.emb (ix2 u v) = (ix2 u v : S1x1.Idx) := by
    funext a; apply Fin.ext
    match a with
    | ⟨0, _⟩ => show win0_11.index t (0 : Fin 2) * 1 + 1 * u.val = u.val; rw [a0]; omega
    | ⟨1, _⟩ => show win0_11.index t (1 : Fin 2) * 1 + 1 * v.val = v.val; rw [a1]; omega
  rw [h]

/-! ## What a point writes back -/

/-- The result window's block at point `t`: row `r` of the block is row `10000 t + r` of the array. -/
theorem out_emb (t : Fin cfg0.N) (r : Fin 10000) (q : Fin 1) (e : Fin 2500000) (he : e.val = t.val * 10000 + r.val) :
    ((cfg0.win 12).blk t).view.emb (ix2 r q) = (ix2 e q : S2500000x1.Idx) := by
  obtain ⟨a0, a1⟩ := idx12 t
  funext a; apply Fin.ext
  match a with
  | ⟨0, _⟩ => show win0_12.index t (0 : Fin 2) * 10000 + 1 * r.val = e.val; rw [a0, he]; omega
  | ⟨1, _⟩ => show win0_12.index t (1 : Fin 2) * 1 + 1 * q.val = q.val; rw [a1]; omega

/-- WHAT POINT `t` WRITES BACK is block `t` of the weight array. -/
theorem flushed_eq (c : Dev nD) (t : Fin cfg0.N) :
    (dats m 0 c).flushed 12 t = ((cfg0.win 12).blk t).view.read (Elt Ideal) (weights m c) := by
  show (cfg0.win 12).cut (grid0.coords t) ((dats m 0 c).after 12 t) = _
  rw [after0_12]
  unfold out0_12
  rw [View.canon_unit_zero hz]
  simp only [View.ld_unit_zero (S := S10000x32) hz, View.ld_unit_zero (S := S32x64) hz, View.ld_unit_zero (S := S1x64) hz,
    View.ld_unit_zero (S := S64x1) hz, View.ld_unit_zero (S := S1x1) hz]
  funext y
  obtain ⟨r, q, rfl⟩ : ∃ (r : Fin 10000) (q : Fin 1), y = ix2 r q := ⟨y 0, y 1, eq_ix2 y⟩
  have hN : grid0.N = 250 := N_0
  have ht : t.val < grid0.N := t.isLt
  have hr : r.val < 10000 := r.isLt
  obtain ⟨e, he⟩ : ∃ e : Fin 2500000, e.val = t.val * 10000 + r.val := ⟨⟨t.val * 10000 + r.val, by omega⟩, rfl⟩
  show k0_pay1 (k0_pay2 (iblk m c 0 t) (iblk m c 1 t) (iblk m c 2 t) (iblk m c 3 t) (iblk m c 4 t) (iblk m c 5 t) (iblk m c 9 t) (iblk m c 8 t))
      (iblk m c 6 t) (iblk m c 7 t) (iblk m c 10 t) (iblk m c 11 t) (ix2 r q) = weights m c (((cfg0.win 12).blk t).view.emb (ix2 r q))
  rw [out_emb t r q e he]
  refine (Body.gate_at (iblk m c 0 t) (iblk m c 1 t) (iblk m c 2 t) (iblk m c 3 t) (iblk m c 4 t) (iblk m c 5 t) (iblk m c 6 t)
    (iblk m c 7 t) (iblk m c 8 t) (iblk m c 9 t) (iblk m c 10 t) (iblk m c 11 t) r q).trans ?_
  show _ = weightAt m c e q
  unfold weightAt
  simp only [read0 m c t r e he, read1 m c t r e he, read2 m c t r e he, read3 m c t, read4 m c t, read5 m c t, read6 m c t,
    read7 m c t, read8 m c t, read9 m c t, read10 m c t, read11 m c t]

/-! ## The array after the region -/

/-- An index of the array is in point `t`'s block iff each coordinate is in the block's range on its axis. -/
theorem mem_blk (t : Fin cfg0.N) (i : S2500000x1.Idx) :
    i ∈ ((cfg0.win 12).blk t).view.set ↔ ∀ a : Fin 2, win0_12.index t a * S10000x1.size a ≤ (i a).val ∧ (i a).val < win0_12.index t a * S10000x1.size a + S10000x1.size a := by
  show i ∈ ((View.whole main_v29).slice (win0_12.rect t)).set ↔ _
  rw [View.set_slice_whole, Rect.mem_set_unit]
  exact Iff.rfl

/-- THE RESULT ARRAY after the region is the weight array: row `e` is in the block of point `e / 10000`. -/
theorem final (c : Dev nD) : (dats m 0 c).arrAt 12 cfg0.N = weights m c :=
  (dats m 0 c).arrAt_eq_of_cover 12 (weights m c) (fun t _ => flushed_eq m c t) fun i => by
    have hi0 : (i 0).val < 2500000 := (i 0).isLt
    have hi1 : (i 1).val < 1 := (i 1).isLt
    have hN : grid0.N = 250 := N_0
    have hlt : (i 0).val / 10000 < grid0.N := by rw [hN]; omega
    obtain ⟨a0, a1⟩ := idx12 ⟨(i 0).val / 10000, hlt⟩
    refine ⟨⟨(i 0).val / 10000, hlt⟩, flush0_12 _, ?_⟩
    rw [mem_blk]
    intro a
    match a with
    | ⟨0, _⟩ =>
      show win0_12.index ⟨(i 0).val / 10000, hlt⟩ (0 : Fin 2) * 10000 ≤ (i 0).val ∧ (i 0).val < win0_12.index ⟨(i 0).val / 10000, hlt⟩ (0 : Fin 2) * 10000 + 10000
      rw [a0]; show (i 0).val / 10000 * 10000 ≤ (i 0).val ∧ (i 0).val < (i 0).val / 10000 * 10000 + 10000; omega
    | ⟨1, _⟩ =>
      show win0_12.index ⟨(i 0).val / 10000, hlt⟩ (1 : Fin 2) * 1 ≤ (i 1).val ∧ (i 1).val < win0_12.index ⟨(i 0).val / 10000, hlt⟩ (1 : Fin 2) * 1 + 1
      rw [a1]; omega

end Cert.EdgeGate.Region

end
-- ==== Proof.RefValue.lean ====
/-
  The reference's weight array before the blend, read at one entry.

  The reference joins the 32 similarity features and the 32 relation coordinates of an edge into one row of 64, and
  contracts it with the whole 64 x 64 first-layer matrix.  Read at an entry, the 64-term sum splits into its first 32
  terms (which read the similarity features and rows 0..31 of the matrix) and its last 32 (the relation embedding and
  rows 32..63): the two products the kernel adds.  Everything after that is entry by entry the same expression as the
  specification: the row vectors broadcast over the edges read their one coordinate, and the host's operations on the
  extended reals are the kernel's.
-/
import proofs.«153350_j36103495090409_1_alg».proof.Proof.Gen.ReferenceIdeal.Read
import proofs.«153350_j36103495090409_1_alg».proof.Proof.Spec
import Idealize.ShloMosaic.Lib.ValueIdx
import Idealize.ShloMosaic.Lib.Pipeline.Value

open scoped BigOperators

noncomputable section

namespace Cert.EdgeGate.Ref

open Idealize.ShloMosaic Idealize.ShloMosaic.ValueIdx Cert.ReferenceIdeal Cert.ReferenceIdeal.Read Cert.EdgeGate

/-! ## Where each broadcast and each contraction reads -/

theorem row27 (e : Fin 2500000) (j : Fin 64) : idx_main_v27 (idx_main_v28 (ix2 e j)) = ix1 j :=
  funext fun a => match a with | ⟨0, _⟩ => rfl
theorem row30 (e : Fin 2500000) (j : Fin 64) : idx_main_v30 (idx_main_v31 (ix2 e j)) = ix1 j :=
  funext fun a => match a with | ⟨0, _⟩ => rfl
theorem row36 (e : Fin 2500000) (j : Fin 64) : idx_main_v36 (idx_main_v37 (ix2 e j)) = ix1 j :=
  funext fun a => match a with | ⟨0, _⟩ => rfl
theorem row39 (e : Fin 2500000) (j : Fin 64) : idx_main_v39 (idx_main_v40 (ix2 e j)) = ix1 j :=
  funext fun a => match a with | ⟨0, _⟩ => rfl
theorem row42 (e : Fin 2500000) (j : Fin 64) : idx_main_v42 (idx_main_v43 (ix2 e j)) = ix1 j :=
  funext fun a => match a with | ⟨0, _⟩ => rfl
theorem unit51 (e : Fin 2500000) (q : Fin 1) : idx_main_v51 (idx_main_v52 (ix2 e q)) = ix1 q :=
  funext fun a => match a with | ⟨0, _⟩ => Fin.ext (by show 0 = q.val; omega)
theorem lrow26 (e : Fin 2500000) (j k : Fin 64) : lidx_main_v26 (ix2 e j) k = ix2 e k :=
  funext fun a => match a with | ⟨0, _⟩ => rfl | ⟨1, _⟩ => rfl
theorem rcol26 (e : Fin 2500000) (j k : Fin 64) : ridx_main_v26 (ix2 e j) k = ix2 k j :=
  funext fun a => match a with | ⟨0, _⟩ => rfl | ⟨1, _⟩ => rfl
theorem lrow50 (e : Fin 2500000) (q : Fin 1) (k : Fin 64) : lidx_main_v50 (ix2 e q) k = ix2 e k :=
  funext fun a => match a with | ⟨0, _⟩ => rfl | ⟨1, _⟩ => rfl
theorem rcol50 (e : Fin 2500000) (q : Fin 1) (k : Fin 64) : ridx_main_v50 (ix2 e q) k = ix2 k q :=
  funext fun a => match a with | ⟨0, _⟩ => rfl | ⟨1, _⟩ => rfl

/-! ## The joined row -/

/-- A coordinate in the first half of the joined row is the similarity feature of that coordinate. -/
theorem feat_left (x0 : (⟨S50000x32, .f32⟩ : BufTy).Contents (Elt Ideal)) (x1 : (⟨S200x32, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (e : Fin 2500000) (k : Fin 32) :
    val_main_v25 (F := Ideal) x0 x1 x10 x11 x12 (ix2 e (Fin.castAdd 32 k))
      = sim (val_main_v6 (F := Ideal) x0 x10 (ix2 e k)) (val_main_v13 (F := Ideal) x0 x11 (ix2 e k)) := by
  unfold val_main_v25
  exact (concatenate_pair_apply_left (t := S2500000x64) (s₁ := S2500000x32) (s₂ := S2500000x32) (1 : Fin 2) _ _ _ (ix2 e (Fin.castAdd 32 k) : S2500000x64.Idx) rfl (ix2 e k : S2500000x32.Idx)
    (fun b => match b with | ⟨0, _⟩ => rfl | ⟨1, _⟩ => rfl)).trans rfl

/-- A coordinate in the second half of the joined row is the relation embedding's coordinate, 32 lower. -/
theorem feat_right (x0 : (⟨S50000x32, .f32⟩ : BufTy).Contents (Elt Ideal)) (x1 : (⟨S200x32, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (e : Fin 2500000) (k : Fin 32) :
    val_main_v25 (F := Ideal) x0 x1 x10 x11 x12 (ix2 e (Fin.natAdd 32 k)) = val_main_v24 (F := Ideal) x1 x12 (ix2 e k) := by
  unfold val_main_v25
  exact concatenate_pair_apply_right (t := S2500000x64) (s₁ := S2500000x32) (s₂ := S2500000x32) (1 : Fin 2) _ _ _ (ix2 e (Fin.natAdd 32 k) : S2500000x64.Idx) rfl rfl (ix2 e k : S2500000x32.Idx)
    (fun b hb => match b, hb with | ⟨0, _⟩, _ => rfl | ⟨1, _⟩, hb => absurd rfl hb) (Nat.add_comm _ _)

/-- The first layer's product: the 64-term sum as the two 32-term sums. -/
theorem lin_ref (x0 : (⟨S50000x32, .f32⟩ : BufTy).Contents (Elt Ideal)) (x1 : (⟨S200x32, .f32⟩ : BufTy).Contents (Elt Ideal)) (x2 : (⟨S64x64, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (e : Fin 2500000) (j : Fin 64) :
    val_main_v26 (F := Ideal) x0 x1 x2 x10 x11 x12 (ix2 e j)
      = ∑ k : Fin 32, sim (val_main_v6 (F := Ideal) x0 x10 (ix2 e k)) (val_main_v13 (F := Ideal) x0 x11 (ix2 e k)) * x2 (ix2 (Fin.castAdd 32 k) j)
        + ∑ k : Fin 32, val_main_v24 (F := Ideal) x1 x12 (ix2 e k) * x2 (ix2 (Fin.natAdd 32 k) j) := by
  rw [val_main_v26_apply, sum_halves]
  simp only [lrow26, rcol26, feat_left, feat_right]

/-- A hidden unit after the rectifier. -/
theorem hidden_ref (x0 : (⟨S50000x32, .f32⟩ : BufTy).Contents (Elt Ideal)) (x1 : (⟨S200x32, .f32⟩ : BufTy).Contents (Elt Ideal)) (x2 : (⟨S64x64, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (e : Fin 2500000) (j : Fin 64) :
    val_main_v49 (F := Ideal) x0 x1 x2 x3 x4 x5 x6 x7 x10 x11 x12 (ix2 e j)
      = leaky (normed (fun k => val_main_v6 (F := Ideal) x0 x10 (ix2 e k)) (fun k => val_main_v13 (F := Ideal) x0 x11 (ix2 e k))
          (fun k => val_main_v24 (F := Ideal) x1 x12 (ix2 e k)) (fun k => x2 (ix2 (Fin.castAdd 32 k) j)) (fun k => x2 (ix2 (Fin.natAdd 32 k) j))
          (x3 (ix1 j)) (x6 (ix1 j)) (x7 (ix1 j)) * x4 (ix1 j) + x5 (ix1 j)) := by
  simp only [val_main_v49_apply, val_main_v48_apply, val_main_v47_apply, val_main_v46_apply, val_main_v45_apply,
    val_main_v44_apply, val_main_v43_apply, val_main_v42_apply, val_main_v41_apply, val_main_v40_apply, val_main_v39_apply,
    val_main_v38_apply, val_main_v37_apply, val_main_v36_apply, val_main_v35_apply, val_main_v34_apply, val_main_v33_apply,
    val_main_v32_apply, val_main_v31_apply, val_main_v30_apply, val_main_v29_apply, val_main_v28_apply, val_main_v27_apply,
    val_main_cst_apply, val_main_cst_5_apply, val_main_cst_6_apply, row27, row30, row36, row39, row42, lin_ref]
  rfl

/-- THE REFERENCE'S WEIGHT before the blend, at edge `e`: the gate weight of that edge's data. -/
theorem weight_ref (x0 : (⟨S50000x32, .f32⟩ : BufTy).Contents (Elt Ideal)) (x1 : (⟨S200x32, .f32⟩ : BufTy).Contents (Elt Ideal)) (x2 : (⟨S64x64, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (e : Fin 2500000) (q : Fin 1) :
    val_main_v53 (F := Ideal) x0 x1 x2 x3 x4 x5 x6 x7 x8 x9 x10 x11 x12 (ix2 e q)
      = gate (fun k => val_main_v6 (F := Ideal) x0 x10 (ix2 e k)) (fun k => val_main_v13 (F := Ideal) x0 x11 (ix2 e k))
          (fun k => val_main_v24 (F := Ideal) x1 x12 (ix2 e k)) (fun k j => x2 (ix2 (Fin.castAdd 32 k) j)) (fun k j => x2 (ix2 (Fin.natAdd 32 k) j))
          (fun j => x3 (ix1 j)) (fun j => x6 (ix1 j)) (fun j => x7 (ix1 j)) (fun j => x4 (ix1 j)) (fun j => x5 (ix1 j))
          (fun j => x8 (ix2 j q)) (x9 (ix1 q)) := by
  rw [val_main_v53_apply, val_main_v50_apply, val_main_v52_apply, val_main_v51_apply, unit51]
  simp only [lrow50, rcol50, hidden_ref]
  rfl

end Cert.EdgeGate.Ref

end
-- ==== Proof.HostGather.lean ====
/-
  The three gathered arrays the region stages are the reference's gathered arrays.

  Before the region the kernel's program gathers, for every edge, the row of the node table at the edge's source, the
  row at its target, and the row of the relation table at its type (a negative index counted from the end first).  The
  reference's program does the same three gathers with the same operations, so the arrays are the same functions of
  the arguments.
-/
import proofs.«153350_j36103495090409_1_alg».proof.Proof.Gen.KernelIdeal.Frame
import proofs.«153350_j36103495090409_1_alg».proof.Proof.Gen.ReferenceIdeal.Read
import Idealize.ShloMosaic.Lib.StableHlo.Run
import Idealize.ShloMosaic.Lib.ValueLayout
import Idealize.ShloMosaic.Lib.ValueIdx

set_option maxRecDepth 16384

noncomputable section

namespace Cert.EdgeGate.Host

open Idealize.ShloMosaic Idealize.ShloMosaic.ValueIdx Idealize.SL.Sem Idealize.ShloMosaic.StableHlo Cert.KernelIdeal Cert.KernelIdeal.Gen

variable (m : (ℓ : Loc nD τ sig) → Buf (Elt Ideal) ℓ)

/-- The rows of the node table at the edges' sources. -/
theorem src_eq (c : Dev nD) : (V m c main_v6 : S2500000x32.Idx → EReal)
    = Cert.ReferenceIdeal.Read.val_main_v6 (F := Ideal) (m ((c.tc : Thread nD τ).loc main_arg0)) (m ((c.tc : Thread nD τ).loc main_arg10)) := by
  show StableHlo.after hostOps0 (fun b => m (c, b)) (Proc.devRef .tc main_v6) = _
  after_results
  rfl

set_option maxHeartbeats 4000000 in
/-- The rows of the node table at the edges' targets. -/
theorem dst_eq (c : Dev nD) : (V m c main_v13 : S2500000x32.Idx → EReal)
    = Cert.ReferenceIdeal.Read.val_main_v13 (F := Ideal) (m ((c.tc : Thread nD τ).loc main_arg0)) (m ((c.tc : Thread nD τ).loc main_arg11)) := by
  show StableHlo.after hostOps0 (fun b => m (c, b)) (Proc.devRef .tc main_v13) = _
  after_results
  rfl

set_option maxHeartbeats 4000000 in
/-- The rows of the relation table at the edges' types. -/
theorem rel_eq (c : Dev nD) : (V m c main_v20 : S2500000x32.Idx → EReal)
    = Cert.ReferenceIdeal.Read.val_main_v24 (F := Ideal) (m ((c.tc : Thread nD τ).loc main_arg1)) (m ((c.tc : Thread nD τ).loc main_arg12)) := by
  show StableHlo.after hostOps0 (fun b => m (c, b)) (Proc.devRef .tc main_v20) = _
  after_results
  rfl

end Cert.EdgeGate.Host

end
-- ==== Proof.HostParams.lean ====
/-
  The small parameter arrays the region stages, read at an entry.

  Before the region the kernel's program cuts the 64 x 64 first-layer matrix into its rows 0..31 and its rows 32..63,
  and gives each 64-vector (and the one-entry second bias) a leading axis of extent one.  Read at an entry these are
  the arguments themselves: row `k` of the lower half is row `32 + k` of the matrix, and entry `(0, j)` of a reshaped
  vector is its entry `j`.
-/
import proofs.«153350_j36103495090409_1_alg».proof.Proof.Gen.KernelIdeal.Frame
import proofs.«153350_j36103495090409_1_alg».proof.Proof.Gen.ReferenceIdeal.Read
import Idealize.ShloMosaic.Lib.StableHlo.Run
import Idealize.ShloMosaic.Lib.ValueLayout
import Idealize.ShloMosaic.Lib.ValueIdx

set_option maxRecDepth 16384

noncomputable section

namespace Cert.EdgeGate.Host

open Idealize.ShloMosaic Idealize.ShloMosaic.ValueIdx Idealize.SL.Sem Idealize.ShloMosaic.StableHlo Cert.KernelIdeal Cert.KernelIdeal.Gen

variable (m : (ℓ : Loc nD τ sig) → Buf (Elt Ideal) ℓ)

/-- Rows 0..31 of the first-layer matrix. -/
theorem wa_at (c : Dev nD) (k : Fin 32) (j : Fin 64) :
    (V m c main_v21 : S32x64.Idx → EReal) (ix2 k j) = (m ((c.tc : Thread nD τ).loc main_arg2) : S64x64.Idx → EReal) (ix2 (Fin.castAdd 32 k) j) := by
  have e : (V m c main_v21 : S32x64.Idx → EReal) = extractStridedSlice S32x64 ![0, 0] (m ((c.tc : Thread nD τ).loc main_arg2) : S64x64.Idx → EReal) slices_S64x64_S32x64_0_0 := by
    show StableHlo.after hostOps0 (fun b => m (c, b)) (Proc.devRef .tc main_v21) = _
    after_results
  rw [e]
  exact slice2_axis0_apply 0 _ _ k j (Fin.castAdd 32 k) (Nat.zero_add _).symm

/-- Rows 32..63 of the first-layer matrix. -/
theorem wb_at (c : Dev nD) (k : Fin 32) (j : Fin 64) :
    (V m c main_v22 : S32x64.Idx → EReal) (ix2 k j) = (m ((c.tc : Thread nD τ).loc main_arg2) : S64x64.Idx → EReal) (ix2 (Fin.natAdd 32 k) j) := by
  have e : (V m c main_v22 : S32x64.Idx → EReal) = extractStridedSlice S32x64 ![32, 0] (m ((c.tc : Thread nD τ).loc main_arg2) : S64x64.Idx → EReal) slices_S64x64_S32x64_32_0 := by
    show StableHlo.after hostOps0 (fun b => m (c, b)) (Proc.devRef .tc main_v22) = _
    after_results
  rw [e]
  exact slice2_axis0_apply 32 _ _ k j (Fin.natAdd 32 k) rfl

/-- The first layer's bias. -/
theorem b0_at (c : Dev nD) (j : Fin 64) :
    (V m c main_v23 : S1x64.Idx → EReal) (ix2 (0 : Fin 1) j) = (m ((c.tc : Thread nD τ).loc main_arg3) : S64.Idx → EReal) (ix1 j) := by
  have e : (V m c main_v23 : S1x64.Idx → EReal) = shapeCast S1x64 (m ((c.tc : Thread nD τ).loc main_arg3) : S64.Idx → EReal) shapeCasts_S64_S1x64 := by
    show StableHlo.after hostOps0 (fun b => m (c, b)) (Proc.devRef .tc main_v23) = _
    after_results
    rfl
  rw [e]
  exact shapeCast_a_1a_apply _ _ 0 j

/-- The batch-norm scale. -/
theorem gamma_at (c : Dev nD) (j : Fin 64) :
    (V m c main_v24 : S1x64.Idx → EReal) (ix2 (0 : Fin 1) j) = (m ((c.tc : Thread nD τ).loc main_arg4) : S64.Idx → EReal) (ix1 j) := by
  have e : (V m c main_v24 : S1x64.Idx → EReal) = shapeCast S1x64 (m ((c.tc : Thread nD τ).loc main_arg4) : S64.Idx → EReal) shapeCasts_S64_S1x64 := by
    show StableHlo.after hostOps0 (fun b => m (c, b)) (Proc.devRef .tc main_v24) = _
    after_results
    rfl
  rw [e]
  exact shapeCast_a_1a_apply _ _ 0 j

/-- The batch-norm shift. -/
theorem beta_at (c : Dev nD) (j : Fin 64) :
    (V m c main_v25 : S1x64.Idx → EReal) (ix2 (0 : Fin 1) j) = (m ((c.tc : Thread nD τ).loc main_arg5) : S64.Idx → EReal) (ix1 j) := by
  have e : (V m c main_v25 : S1x64.Idx → EReal) = shapeCast S1x64 (m ((c.tc : Thread nD τ).loc main_arg5) : S64.Idx → EReal) shapeCasts_S64_S1x64 := by
    show StableHlo.after hostOps0 (fun b => m (c, b)) (Proc.devRef .tc main_v25) = _
    after_results
    rfl
  rw [e]
  exact shapeCast_a_1a_apply _ _ 0 j

/-- The batch-norm mean. -/
theorem mean_at (c : Dev nD) (j : Fin 64) :
    (V m c main_v26 : S1x64.Idx → EReal) (ix2 (0 : Fin 1) j) = (m ((c.tc : Thread nD τ).loc main_arg6) : S64.Idx → EReal) (ix1 j) := by
  have e : (V m c main_v26 : S1x64.Idx → EReal) = shapeCast S1x64 (m ((c.tc : Thread nD τ).loc main_arg6) : S64.Idx → EReal) shapeCasts_S64_S1x64 := by
    show StableHlo.after hostOps0 (fun b => m (c, b)) (Proc.devRef .tc main_v26) = _
    after_results
    rfl
  rw [e]
  exact shapeCast_a_1a_apply _ _ 0 j

/-- The batch-norm variance. -/
theorem var_at (c : Dev nD) (j : Fin 64) :
    (V m c main_v27 : S1x64.Idx → EReal) (ix2 (0 : Fin 1) j) = (m ((c.tc : Thread nD τ).loc main_arg7) : S64.Idx → EReal) (ix1 j) := by
  have e : (V m c main_v27 : S1x64.Idx → EReal) = shapeCast S1x64 (m ((c.tc : Thread nD τ).loc main_arg7) : S64.Idx → EReal) shapeCasts_S64_S1x64 := by
    show StableHlo.after hostOps0 (fun b => m (c, b)) (Proc.devRef .tc main_v27) = _
    after_results
    rfl
  rw [e]
  exact shapeCast_a_1a_apply _ _ 0 j

/-- The second layer's bias. -/
theorem bs_at (c : Dev nD) (q : Fin 1) :
    (V m c main_v28 : S1x1.Idx → EReal) (ix2 (0 : Fin 1) q) = (m ((c.tc : Thread nD τ).loc main_arg9) : S1.Idx → EReal) (ix1 q) := by
  have e : (V m c main_v28 : S1x1.Idx → EReal) = shapeCast S1x1 (m ((c.tc : Thread nD τ).loc main_arg9) : S1.Idx → EReal) shapeCasts_S1_S1x1 := by
    show StableHlo.after hostOps0 (fun b => m (c, b)) (Proc.devRef .tc main_v28) = _
    after_results
    rfl
  rw [e]
  exact shapeCast_a_1a_apply _ _ 0 q

end Cert.EdgeGate.Host

end
-- ==== Proof.Bridge.lean ====
/-
  The kernel's weight array is the reference's weight array before the blend.

  Row `e` of the array the region leaves is the gate weight of edge `e`'s data as the region finds them; those data
  are the arguments read exactly as the reference reads them (the same three gathers, rows 0..31 and 32..63 of the
  first-layer matrix, each parameter vector at its entry), and the reference's array at row `e` is the gate weight
  of the same data.
-/
import proofs.«153350_j36103495090409_1_alg».proof.Proof.Region
import proofs.«153350_j36103495090409_1_alg».proof.Proof.RefValue
import proofs.«153350_j36103495090409_1_alg».proof.Proof.HostGather
import proofs.«153350_j36103495090409_1_alg».proof.Proof.HostParams

set_option maxRecDepth 16384

noncomputable section

namespace Cert.EdgeGate.Bridge

open Idealize.ShloMosaic Idealize.ShloMosaic.ValueIdx Idealize.SL.Sem Cert.KernelIdeal Cert.KernelIdeal.Gen Cert.EdgeGate

variable (m : (ℓ : Loc nD τ sig) → Buf (Elt Ideal) ℓ)

theorem weights_eq (c : Dev nD) :
    Region.weights m c = Cert.ReferenceIdeal.Read.val_main_v53 (F := Ideal) (m ((c.tc : Thread nD τ).loc main_arg0)) (m ((c.tc : Thread nD τ).loc main_arg1)) (m ((c.tc : Thread nD τ).loc main_arg2)) (m ((c.tc : Thread nD τ).loc main_arg3)) (m ((c.tc : Thread nD τ).loc main_arg4)) (m ((c.tc : Thread nD τ).loc main_arg5)) (m ((c.tc : Thread nD τ).loc main_arg6)) (m ((c.tc : Thread nD τ).loc main_arg7)) (m ((c.tc : Thread nD τ).loc main_arg8)) (m ((c.tc : Thread nD τ).loc main_arg9)) (m ((c.tc : Thread nD τ).loc main_arg10)) (m ((c.tc : Thread nD τ).loc main_arg11)) (m ((c.tc : Thread nD τ).loc main_arg12)) := by
  funext i
  obtain ⟨e, q, rfl⟩ : ∃ (e : Fin 2500000) (q : Fin 1), i = ix2 e q := ⟨i 0, i 1, eq_ix2 i⟩
  rw [Ref.weight_ref]
  show Region.weightAt m c e q = _
  unfold Region.weightAt
  rw [Host.src_eq, Host.dst_eq, Host.rel_eq, V_main_arg8]
  have h21 : (fun (k : Fin 32) (j : Fin 64) => V m c main_v21 (ix2 k j)) = fun k j => (m ((c.tc : Thread nD τ).loc main_arg2)) (ix2 (Fin.castAdd 32 k) j) :=
    funext fun k => funext fun j => Host.wa_at m c k j
  have h22 : (fun (k : Fin 32) (j : Fin 64) => V m c main_v22 (ix2 k j)) = fun k j => (m ((c.tc : Thread nD τ).loc main_arg2)) (ix2 (Fin.natAdd 32 k) j) :=
    funext fun k => funext fun j => Host.wb_at m c k j
  have h23 : (fun (j : Fin 64) => V m c main_v23 (ix2 (0 : Fin 1) j)) = fun j => (m ((c.tc : Thread nD τ).loc main_arg3)) (ix1 j) := funext fun j => Host.b0_at m c j
  have h24 : (fun (j : Fin 64) => V m c main_v24 (ix2 (0 : Fin 1) j)) = fun j => (m ((c.tc : Thread nD τ).loc main_arg4)) (ix1 j) := funext fun j => Host.gamma_at m c j
  have h25 : (fun (j : Fin 64) => V m c main_v25 (ix2 (0 : Fin 1) j)) = fun j => (m ((c.tc : Thread nD τ).loc main_arg5)) (ix1 j) := funext fun j => Host.beta_at m c j
  have h26 : (fun (j : Fin 64) => V m c main_v26 (ix2 (0 : Fin 1) j)) = fun j => (m ((c.tc : Thread nD τ).loc main_arg6)) (ix1 j) := funext fun j => Host.mean_at m c j
  have h27 : (fun (j : Fin 64) => V m c main_v27 (ix2 (0 : Fin 1) j)) = fun j => (m ((c.tc : Thread nD τ).loc main_arg7)) (ix1 j) := funext fun j => Host.var_at m c j
  rw [h21, h22, h23, h24, h25, h26, h27, Host.bs_at m c q]

end Cert.EdgeGate.Bridge

end
-- ==== Proof.TailRaw.lean ====
/-
  The host operations after the region, as one function of the weight array and the original-edge indices.

  After the region the kernel's program picks the weights of the original edges out of the weight array (an index
  below zero is counted from the end), blends each half and half with one, and writes the blended weights back at the
  same edges.  Read off the program, the result is `kblend` of the array the region left and of the index argument.
-/
import proofs.«153350_j36103495090409_1_alg».proof.Proof.Gen.KernelIdeal.Frame
import Idealize.ShloMosaic.Lib.StableHlo.Run

set_option maxRecDepth 16384

noncomputable section

namespace Cert.EdgeGate.Tail

open Idealize.ShloMosaic Idealize.SL.Sem Idealize.ShloMosaic.StableHlo Cert.KernelIdeal Cert.KernelIdeal.Gen

variable {F : FTy → Type} [FloatOps F]

/-- The original-edge indices as the gather and the scatter take them: an index below zero has 2500000 added, and the
    indices become a one-column array. -/
def kids (ids : (⟨S500000, .i32⟩ : BufTy).Contents (Elt F)) : (⟨S500000x1, .i32⟩ : BufTy).Contents (Elt F) :=
  broadcastInDim S500000x1 ![0] bcast_S500000_S500000x1_0
    (select (cmpi .slt ids (broadcastInDim S500000 ![] bcast_S_S500000 (constantI S_ 32 0#32)))
      (addi ids (broadcastInDim S500000 ![] bcast_S_S500000 (constantI S_ 32 2500000#32))) ids)

/-- The blended weights of the original edges: one half of the picked weight plus one half. -/
def kblended (W : (⟨S2500000x1, .f32⟩ : BufTy).Contents (Elt F)) (ids : (⟨S500000, .i32⟩ : BufTy).Contents (Elt F)) :
    (⟨S500000x1, .f32⟩ : BufTy).Contents (Elt F) :=
  addf (mulf (broadcastInDim S500000x1 ![] bcast_S_S500000x1 (constant S_ .f32 0x3F000000#32))
      (Host.gather gather_S2500000x1_S500000x1_S500000x1_1_0_n_n_0_1_11 W (kids ids)))
    (broadcastInDim S500000x1 ![] bcast_S_S500000x1 (constant S_ .f32 0x3F000000#32))

/-- The weight array with the blended weights written back at the original edges. -/
def kblend (W : (⟨S2500000x1, .f32⟩ : BufTy).Contents (Elt F)) (ids : (⟨S500000, .i32⟩ : BufTy).Contents (Elt F)) :
    (⟨S2500000x1, .f32⟩ : BufTy).Contents (Elt F) :=
  Host.scatter scatter_S2500000x1_S500000x1_S500000x1_1_0_0_1 (fun _ b => b) W (kids ids) (kblended W ids)

set_option maxHeartbeats 4000000 in
/-- The program's result after the region's tail, read off its operations. -/
theorem tail_raw (m : (ℓ : Loc nD τ sig) → Buf (Elt F) ℓ) (c : Dev nD) :
    Pipeline.afterTail₀ cfgs (dats m) 0 (V0 m) [hostOps1] c main_v47
      = kblend (Pipeline.withArrays (cfgs 0).spec c (V0 m c) (fun w => (dats m 0 c).arrAt w (cfgs 0).N) (Proc.devRef .tc main_v29))
          (Pipeline.withArrays (cfgs 0).spec c (V0 m c) (fun w => (dats m 0 c).arrAt w (cfgs 0).N) (Proc.devRef .tc main_arg13)) := by
  unfold Pipeline.afterTail₀
  simp only [hostOps1, List.flatten_cons, List.flatten_nil, List.append_nil, List.cons_append, List.nil_append]
  after_results
  rfl

end Cert.EdgeGate.Tail

end
-- ==== Proof.Tail.lean ====
/-
  The blend is one function in both programs.

  The reference ends with the same chain of host operations as the kernel's program — pick the original edges'
  weights, blend, write back — applied to its own weight array: the same function `kblend`.  And in the kernel's
  program the array that chain reads is the one the region left, the indices the argument as launched.
-/
import proofs.«153350_j36103495090409_1_alg».proof.Proof.TailRaw
import proofs.«153350_j36103495090409_1_alg».proof.Proof.Gen.ReferenceIdeal.Read

set_option maxRecDepth 16384

noncomputable section

namespace Cert.EdgeGate.Tail

open Idealize.ShloMosaic Idealize.SL.Sem

section
open Cert.ReferenceIdeal Cert.ReferenceIdeal.Read

set_option maxHeartbeats 2000000 in
/-- The reference's result is the blend of its weight array. -/
theorem ref_blend (x0 : (⟨S50000x32, .f32⟩ : BufTy).Contents (Elt Ideal)) (x1 : (⟨S200x32, .f32⟩ : BufTy).Contents (Elt Ideal)) (x2 : (⟨S64x64, .f32⟩ : BufTy).Contents (Elt Ideal)) (x3 : (⟨S64, .f32⟩ : BufTy).Contents (Elt Ideal)) (x4 : (⟨S64, .f32⟩ : BufTy).Contents (Elt Ideal)) (x5 : (⟨S64, .f32⟩ : BufTy).Contents (Elt Ideal)) (x6 : (⟨S64, .f32⟩ : BufTy).Contents (Elt Ideal)) (x7 : (⟨S64, .f32⟩ : BufTy).Contents (Elt Ideal)) (x8 : (⟨S64x1, .f32⟩ : BufTy).Contents (Elt Ideal)) (x9 : (⟨S1, .f32⟩ : BufTy).Contents (Elt Ideal)) (x10 : (⟨S2500000, .i32⟩ : BufTy).Contents (Elt Ideal)) (x11 : (⟨S2500000, .i32⟩ : BufTy).Contents (Elt Ideal)) (x12 : (⟨S2500000, .i32⟩ : BufTy).Contents (Elt Ideal)) (x13 : (⟨S500000, .i32⟩ : BufTy).Contents (Elt Ideal)) :
    val_main_v71 (F := Ideal) x0 x1 x2 x3 x4 x5 x6 x7 x8 x9 x10 x11 x12 x13
      = kblend (F := Ideal) (val_main_v53 (F := Ideal) x0 x1 x2 x3 x4 x5 x6 x7 x8 x9 x10 x11 x12) x13 := rfl

end

section
open Cert.KernelIdeal Cert.KernelIdeal.Gen

/-- The kernel's program's result is the blend of the array the region left. -/
theorem kernel_blend (m : (ℓ : Loc nD τ sig) → Buf (Elt Ideal) ℓ) (c : Dev nD) :
    Pipeline.afterTail₀ cfgs (dats m) 0 (V0 m) [hostOps1] c main_v47
      = kblend (F := Ideal) ((dats m 0 c).arrAt 12 cfg0.N) (m ((c.tc : Thread nD τ).loc main_arg13)) := by
  rw [tail_raw]
  have h29 : Pipeline.withArrays (cfgs 0).spec c (V0 m c) (fun w => (dats m 0 c).arrAt w (cfgs 0).N) (Proc.devRef .tc main_v29)
      = (dats m 0 c).arrAt 12 cfg0.N :=
    Pipeline.withArrays_arr _ launch0.win.arr_inj c (V0 m c) _ (12 : Fin 13)
  have h13 : Pipeline.withArrays (cfgs 0).spec c (V0 m c) (fun w => (dats m 0 c).arrAt w (cfgs 0).N) (Proc.devRef .tc main_arg13)
      = m ((c.tc : Thread nD τ).loc main_arg13) :=
    (Pipeline.withArrays_of_ne _ c (V0 m c) _ main_arg13 (by exact (by decide : ∀ w, Pipeline.arrRef spec0 w ≠ main_arg13))).trans
      (V_main_arg13 m c)
  rw [h29, h13]

end

end Cert.EdgeGate.Tail

end
-- ==== Proof.lean ====
/-
  The five claims.

  Both programs gather, for every one of the 2500000 edges, the source and target node embeddings and the relation
  embedding; compute the edge's gate weight — a two-layer perceptron on `exp(-|source - target|)` joined with the
  relation embedding, with an evaluation-mode batch normalisation and a leaky rectifier between the layers —; and
  blend the weights of the original edges half and half with one.  The kernel computes the weights block by block
  (10000 edges a grid point) and multiplies the two halves of the joined row by the two halves of the first-layer
  matrix; the reference multiplies the joined row by the whole matrix.  On the extended reals these are one function:
  a 64-term sum is the sum of its first 32 and last 32 terms, which needs no finiteness.  The blend is the same chain
  of host operations in both programs, applied to equal weight arrays.

  The three frames: the two kernels' are generated whole; the reference's is its generated run with the result
  dropped.  The ideal pass rewrote nothing, so `preserves` is trivial.
-/
import proofs.«153350_j36103495090409_1_alg».proof.Defs
import proofs.«153350_j36103495090409_1_alg».proof.Proof.Gen.Kernel
import proofs.«153350_j36103495090409_1_alg».proof.Proof.Gen.Kernel.Frame
import proofs.«153350_j36103495090409_1_alg».proof.Proof.Gen.KernelIdeal
import proofs.«153350_j36103495090409_1_alg».proof.Proof.Gen.KernelIdeal.Frame
import proofs.«153350_j36103495090409_1_alg».proof.Proof.Gen.ReferenceIdeal
import proofs.«153350_j36103495090409_1_alg».proof.Proof.Gen.Pre_finite_inputs
import proofs.«153350_j36103495090409_1_alg».proof.Proof.Gen.ReferenceIdeal.Run
import proofs.«153350_j36103495090409_1_alg».proof.Proof.Gen.ReferenceIdeal.Read
import proofs.«153350_j36103495090409_1_alg».proof.Proof.Region
import proofs.«153350_j36103495090409_1_alg».proof.Proof.Bridge
import proofs.«153350_j36103495090409_1_alg».proof.Proof.Tail
import Idealize.ShloMosaic.Adequacy
import Idealize.ShloMosaic.Init

set_option maxRecDepth 16384

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => (θ_run Cert.ReferenceIdeal.defs _ _).mono (fun _ h c => (h c).2) (Cert.ReferenceIdeal.Value.run (F := Ideal) m ρ)

section
open Cert.KernelIdeal Cert.KernelIdeal.Gen Cert.EdgeGate

/-- The idealized kernel's run: the result is the blend of the weight array, the arguments are unchanged. -/
theorem kernel_run (m : (ℓ : Loc nD τ sig) → Buf (Elt Ideal) ℓ) (ρ : Dev nD → PrngReg) :
    θ_run defs (onTc (τ := τ) (main (F := Ideal))) ⟨m, fun _ => 0, ρ⟩ (fun r => ∀ c : Dev nD,
      r.2.mem ((c.tc : Thread nD τ).loc main_v47) = Tail.kblend (F := Ideal) (Region.weights m c) (m ((c.tc : Thread nD τ).loc main_arg13))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)) :=
  (θ_run defs _ _).mono (fun _ h c => ⟨(((h c).2 main_v47 (Pipeline.mem_restRefs_of main_v47 (by decide) (by decide))).trans
        ((Tail.kernel_blend m c).trans (congrArg (Tail.kblend (F := Ideal) · _) (Region.final m c)))),
      (((h c).2 main_arg0 (Pipeline.mem_restRefs_of main_arg0 (by decide) (by decide))).trans (W_main_arg0 m (dats m) c)),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c)),
      (((h c).2 main_arg3 (Pipeline.mem_restRefs_of main_arg3 (by decide) (by decide))).trans (W_main_arg3 m (dats m) c)),
      (((h c).2 main_arg4 (Pipeline.mem_restRefs_of main_arg4 (by decide) (by decide))).trans (W_main_arg4 m (dats m) c)),
      (((h c).2 main_arg5 (Pipeline.mem_restRefs_of main_arg5 (by decide) (by decide))).trans (W_main_arg5 m (dats m) c)),
      (((h c).2 main_arg6 (Pipeline.mem_restRefs_of main_arg6 (by decide) (by decide))).trans (W_main_arg6 m (dats m) c)),
      (((h c).2 main_arg7 (Pipeline.mem_restRefs_of main_arg7 (by decide) (by decide))).trans (W_main_arg7 m (dats m) c)),
      ((h c).1 10).trans (((dats m 0 c).arrAt_in 10 rfl _).trans ((A_eq m c 10).trans (V_main_arg8 m c))),
      (((h c).2 main_arg9 (Pipeline.mem_restRefs_of main_arg9 (by decide) (by decide))).trans (W_main_arg9 m (dats m) c)),
      (((h c).2 main_arg10 (Pipeline.mem_restRefs_of main_arg10 (by decide) (by decide))).trans (W_main_arg10 m (dats m) c)),
      (((h c).2 main_arg11 (Pipeline.mem_restRefs_of main_arg11 (by decide) (by decide))).trans (W_main_arg11 m (dats m) c)),
      (((h c).2 main_arg12 (Pipeline.mem_restRefs_of main_arg12 (by decide) (by decide))).trans (W_main_arg12 m (dats m) c)),
      (((h c).2 main_arg13 (Pipeline.mem_restRefs_of main_arg13 (by decide) (by decide))).trans (W_main_arg13 m (dats m) c))⟩) (run_main m ρ)

end

/-- The two idealized programs, from memories agreeing on the arguments, end with the same result: the blend of one
    weight array. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.Value.run (F := Ideal) m' ρ')
  obtain ⟨a0, a1, a2, a3, a4, a5, a6, a7, a8, a9, a10, a11, a12, a13⟩ := hagree c
  rw [Cert.ReferenceIdeal.Read.val_main_v71_eq, Cert.EdgeGate.Tail.ref_blend, a0, a1, a2, a3, a4, a5, a6, a7, a8, a9, a10, a11, a12, a13,
    Cert.EdgeGate.Bridge.weights_eq]

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
